-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x64x64 : Shape := ⟨3, ![2, 64, 64]⟩
abbrev S1x64 : Shape := ⟨2, ![1, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x1600000 : S_.BroadcastsInDim S2x1600000 (![] : Fin 0 → Fin S2x1600000.rank)
  reducesTo_S2x1600000_S_d0_1 : S2x1600000.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S2x64x64 .f32) (main_arg5 : FVec F S1x64 .f32) (main_v13 : IVec S_ 1) (main_v16 : IVec S2x1600000 1) : IVec S_ 1 :=
  let main_c_5 : IVec S_ 1 := constantI S_ 1 1#1
  let main_v17 : IVec S_ 1 := (fun x v => Host.reduce IntOp.andi x v reducesTo_S2x1600000_S_d0_1 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : FVec F S2x1600000 .f32) (main_arg3 : FVec F S2x1600000 .f32) (main_arg4 : FVec F S2x64x64 .f32) (main_arg5 : FVec F S1x64 .f32) (main_arg6 : IVec S1600000 32) (main_arg7 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2x1600000 .f32 := Host.absf main_arg2
  let main_cst_2 : FVec F S_ .f32 := constant S_ .f32 0x7F800000#32
  let main_v10 : FVec F S2x1600000 .f32 := broadcastInDim S2x1600000 ![] bcast_S_S2x1600000 main_cst_2
  let main_v11 : IVec S2x1600000 1 := cmpf .olt main_v9 main_v10
  let main_c_3 : IVec S_ 1 := constantI S_ 1 1#1
  let main_v12 : IVec S_ 1 := (fun x v => Host.reduce IntOp.andi x v reducesTo_S2x1600000_S_d0_1 h_S_) main_v11 main_c_3
  let main_v13 : IVec S_ 1 := andi main_v8 main_v12
  let main_v14 : FVec F S2x1600000 .f32 := Host.absf main_arg3
  let main_cst_4 : FVec F S_ .f32 := constant S_ .f32 0x7F800000#32
  let main_v15 : FVec F S2x1600000 .f32 := broadcastInDim S2x1600000 ![] bcast_S_S2x1600000 main_cst_4
  let main_v16 : IVec S2x1600000 1 := cmpf .olt main_v14 main_v15
  fn_part1 (F := F) main_arg4 main_arg5 main_v13 main_v16
-- ==== Kernel.lean ====
abbrev S100000x64 : Shape := ⟨2, ![100000, 64]⟩
abbrev S2x1600000 : Shape := ⟨2, ![2, 1600000]⟩
abbrev S2x64x64 : Shape := ⟨3, ![2, 64, 64]⟩
abbrev S1x64 : Shape := ⟨2, ![1, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x2 : Shape := ⟨2, ![1600000, 2]⟩
abbrev S1600000x4 : Shape := ⟨2, ![1600000, 4]⟩
abbrev S3200x64 : Shape := ⟨2, ![3200, 64]⟩
abbrev S3200x4 : Shape := ⟨2, ![3200, 4]⟩
abbrev S3200x1 : Shape := ⟨2, ![3200, 1]⟩
abbrev S1x64x64 : Shape := ⟨3, ![1, 64, 64]⟩
abbrev S64x64 : Shape := ⟨2, ![64, 64]⟩

abbrev nBuf : Space → Nat
  | .hbm => 45
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .f32⟩
  | .hbm, ⟨3, _⟩ => ⟨S2x1600000, .f32⟩
  | .hbm, ⟨4, _⟩ => ⟨S2x64x64, .f32⟩
  | .hbm, ⟨5, _⟩ => ⟨S1x64, .f32⟩
  | .hbm, ⟨6, _⟩ => ⟨S1600000, .i32⟩
  | .hbm, ⟨7, _⟩ => ⟨S1600000, .i32⟩
  | .hbm, ⟨8, _⟩ => ⟨S100000x64, .bf16⟩
  | .hbm, ⟨9, _⟩ => ⟨S100000x64, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .bf16⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .bf16⟩
  | .hbm, ⟨28, _⟩ => ⟨S1600000x2, .f32⟩
  | .hbm, ⟨29, _⟩ => ⟨S1600000x2, .f32⟩
  | .hbm, ⟨30, _⟩ => ⟨S1600000x4, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x64, .f32⟩
  | .local _ .vmem, ⟨0, _⟩ => ⟨S3200x64, .bf16⟩
  | .local _ .vmem, ⟨1, _⟩ => ⟨S3200x64, .bf16⟩
  | .local _ .vmem, ⟨2, _⟩ => ⟨S3200x64, .bf16⟩
  | .local _ .vmem, ⟨3, _⟩ => ⟨S3200x64, .bf16⟩
  | .local _ .vmem, ⟨4, _⟩ => ⟨S3200x4, .f32⟩
  | .local _ .vmem, ⟨5, _⟩ => ⟨S3200x4, .f32⟩
  | .local _ .vmem, ⟨6, _⟩ => ⟨S2x64x64, .f32⟩
  | .local _ .vmem, ⟨7, _⟩ => ⟨S3200x64, .f32⟩
  | .local _ .vmem, ⟨8, _⟩ => ⟨S3200x64, .f32⟩
  | .local _ .vmem, ⟨9, _⟩ => ⟨S3200x64, .f32⟩
  | .local _ .vmem, ⟨10, _⟩ => ⟨S3200x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3200x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S2x1600000_S1600000x2_1_0 : S2x1600000.Transposes [1, 0] S1600000x2
  concatenates_S1600000x2_S1600000x2_S1600000x4_d1 : Shape.Concatenates [S1600000x2, S1600000x2] S1600000x4 1
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x4_S3200x1_0_0 : ∀ a, (![0, 0] : Fin 2 → Nat) a + S3200x1.size a ≤ S3200x4.size a
  h_S3200x1 : 0 < S3200x1.numel
  shapeCasts_S3200x1_S3200x1 : S3200x1.ShapeCasts S3200x1
  inb_S3200x4_S3200x1_0_2 : ∀ a, (![0, 2] : Fin 2 → Nat) a + S3200x1.size a ≤ S3200x4.size a
  broadcasts_S3200x1_S3200x64 : S3200x1.Broadcasts S3200x64
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  inb_S3200x4_S3200x1_0_1 : ∀ a, (![0, 1] : Fin 2 → Nat) a + S3200x1.size a ≤ S3200x4.size a
  inb_S3200x4_S3200x1_0_3 : ∀ a, (![0, 3] : Fin 2 → Nat) a + S3200x1.size a ≤ S3200x4.size a
  inb_S2x64x64_S1x64x64_1_0_0 : ∀ a, (![1, 0, 0] : Fin 3 → Nat) a + S1x64x64.size a ≤ S2x64x64.size a
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S3200x64_S64x64_S3200x64_1_0_0_1_n_n_wf : DotDims.WF S3200x64 S64x64 S3200x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S1600000x64.size a
  hwx0_0 : ∀ i : grid0.Coords, EltTy.bits .bf16 = 32 ∨ (Rect.block (s := S1600000x64) S3200x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S1600000x64.size a
  hwx0_1 : ∀ i : grid0.Coords, EltTy.bits .bf16 = 32 ∨ (Rect.block (s := S1600000x64) S3200x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x4.size a ≤ S1600000x4.size a
  hwx0_2 : ∀ i : grid0.Coords, EltTy.bits .f32 = 32 ∨ (Rect.block (s := S1600000x4) S3200x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x64.size a ≤ S2x64x64.size a
  hwx0_3 : ∀ i : grid0.Coords, EltTy.bits .f32 = 32 ∨ (Rect.block (s := S2x64x64) S2x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x64.size a ≤ S1600000x64.size a
  hwx0_4 : ∀ i : grid0.Coords, EltTy.bits .f32 = 32 ∨ (Rect.block (s := S1600000x64) S3200x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x64.size a ≤ S1600000x64.size a
  hwx0_5 : ∀ i : grid0.Coords, EltTy.bits .f32 = 32 ∨ (Rect.block (s := S1600000x64) S3200x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v8) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S3200x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S3200x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S3200x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x64x64 : Shape := ⟨3, ![2, 64, 64]⟩
abbrev S1x64 : Shape := ⟨2, ![1, 64]⟩
abbrev S1600000 : Shape := ⟨1, ![1600000]⟩
abbrev S2x1600000x1 : Shape := ⟨3, ![2, 1600000, 1]⟩
abbrev S_ : Shape := ⟨0, ![]⟩
abbrev S1600000x1 : Shape := ⟨2, ![1600000, 1]⟩
abbrev S1600000x64 : Shape := ⟨2, ![1600000, 64]⟩
abbrev S1x1600000x64 : Shape := ⟨3, ![1, 1600000, 64]⟩
abbrev S2x1600000x64 : Shape := ⟨3, ![2, 1600000, 64]⟩
abbrev S2x100000x64 : Shape := ⟨3, ![2, 100000, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .f32⟩
  | .hbm, ⟨3, _⟩ => ⟨S2x1600000, .f32⟩
  | .hbm, ⟨4, _⟩ => ⟨S2x64x64, .f32⟩
  | .hbm, ⟨5, _⟩ => ⟨S1x64, .f32⟩
  | .hbm, ⟨6, _⟩ => ⟨S1600000, .i32⟩
  | .hbm, ⟨7, _⟩ => ⟨S1600000, .i32⟩
  | .hbm, ⟨8, _⟩ => ⟨S2x1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1x1600000x64, .f32⟩
  | .hbm, ⟨19, _⟩ => ⟨S2x1600000x64, .f32⟩
  | .hbm, ⟨20, _⟩ => ⟨S2x1600000x64, .f32⟩
  | .hbm, ⟨21, _⟩ => ⟨S2x1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S2x100000x64, .f32⟩
  | .hbm, ⟨26, _⟩ => ⟨S2x100000x64, .f32⟩
  | .hbm, ⟨27, _⟩ => ⟨S2x1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1x1600000x64, .f32⟩
  | .hbm, ⟨38, _⟩ => ⟨S2x1600000x64, .f32⟩
  | .hbm, ⟨39, _⟩ => ⟨S2x1600000x64, .f32⟩
  | .hbm, ⟨40, _⟩ => ⟨S2x1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S2x100000x64, .f32⟩
  | .hbm, ⟨45, _⟩ => ⟨S2x100000x64, .f32⟩
  | .hbm, ⟨46, _⟩ => ⟨S2x100000x64, .f32⟩
  | .hbm, ⟨47, _⟩ => ⟨S2x100000x64, .f32⟩
  | .hbm, ⟨48, _⟩ => ⟨S2x1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1x1600000x64, .f32⟩
  | .hbm, ⟨59, _⟩ => ⟨S2x1600000x64, .f32⟩
  | .hbm, ⟨60, _⟩ => ⟨S2x1600000x64, .f32⟩
  | .hbm, ⟨61, _⟩ => ⟨S2x1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S2x100000x64, .f32⟩
  | .hbm, ⟨66, _⟩ => ⟨S2x100000x64, .f32⟩
  | .hbm, ⟨67, _⟩ => ⟨S2x1600000x1, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1x1600000x64, .f32⟩
  | .hbm, ⟨78, _⟩ => ⟨S2x1600000x64, .f32⟩
  | .hbm, ⟨79, _⟩ => ⟨S2x1600000x64, .f32⟩
  | .hbm, ⟨80, _⟩ => ⟨S2x1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S2x100000x64, .f32⟩
  | .hbm, ⟨85, _⟩ => ⟨S2x100000x64, .f32⟩
  | .hbm, ⟨86, _⟩ => ⟨S2x100000x64, .f32⟩
  | .hbm, ⟨87, _⟩ => ⟨S2x100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]

class Facts₀ : Prop where
  bcast_S2x1600000_S2x1600000x1_0_1 : S2x1600000.BroadcastsInDim S2x1600000x1 (![0, 1] : Fin 2 → Fin S2x1600000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x64_S1x1600000x64_1_2 : S1600000x64.BroadcastsInDim S1x1600000x64 (![1, 2] : Fin 2 → Fin S1x1600000x64.rank)
  bcast_S2x1600000x1_S2x1600000x64_0_1_2 : S2x1600000x1.BroadcastsInDim S2x1600000x64 (![0, 1, 2] : Fin 3 → Fin S2x1600000x64.rank)
  bcast_S1x1600000x64_S2x1600000x64_0_1_2 : S1x1600000x64.BroadcastsInDim S2x1600000x64 (![0, 1, 2] : Fin 3 → Fin S2x1600000x64.rank)
  bcast_S_S100000x64 : S_.BroadcastsInDim S100000x64 (![] : Fin 0 → Fin S100000x64.rank)
  bcast_S100000x64_S2x100000x64_1_2 : S100000x64.BroadcastsInDim S2x100000x64 (![1, 2] : Fin 2 → Fin S2x100000x64.rank)
  reducesTo_S2x100000x64_S100000x64_d0 : S2x100000x64.ReducesTo [0] S100000x64
  h_S_ : 0 < S_.numel
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S2x100000x64_S1600000x1_S2x1600000x64_02_1_1_1_wf : ScatterDims.WF S2x100000x64 S1600000x1 S2x1600000x64 [0, 2] [1] [1] 1
  dot_S2x100000x64_S2x64x64_S2x100000x64_2_1_1_2_0_0_wf : DotDims.WF S2x100000x64 S2x64x64 S2x100000x64 [2] [1] [1] [2] [0] [0]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S2x100000x64_S1600000x1_S2x1600000x64_02_1_1_1 : ScatterDims S2x100000x64 S1600000x1 S2x1600000x64 where
  updateWindowDims := [0, 2]
  insertedWindowDims := [1]
  scatterDimsToOperandDims := [1]
  indexVectorDim := 1
  wf := scatter_S2x100000x64_S1600000x1_S2x1600000x64_02_1_1_1_wf
def dot_S2x100000x64_S2x64x64_S2x100000x64_2_1_1_2_0_0 : DotDims S2x100000x64 S2x64x64 S2x100000x64 where
  lhsContracting := [2]
  rhsContracting := [1]
  lhsNonContracting := [1]
  rhsNonContracting := [2]
  lhsBatch := [0]
  rhsBatch := [0]
  wf := dot_S2x100000x64_S2x64x64_S2x100000x64_2_1_1_2_0_0_wf

class Facts : Prop extends Facts₀ where

variable [Facts]
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.LibIndexOps.lean ====
import Idealize.ShloMosaic.PureOps.Ideal
import Idealize.ShloMosaic.PureOps.Ideal.Laws
import Idealize.ShloMosaic.Lib.ValueIdx

/-!
# Scatter-add and gather along the leading axis, read at an index

A scatter that adds rows (or scalars) of an update array into an operand at integer row positions, and a
gather that takes rows (or scalars) of an operand at integer row positions, are read here element by element.
For the scatter the result element `(g, f)` is the operand's element plus the sum of the update elements
`(n, f)` over the update rows `n` whose position word, read as a signed integer, is exactly `g` (a position
outside the operand contributes nowhere). For the gather the result element `(e, f)` is the operand's
element at the row whose number is the position word of `e`, read signed and clamped into the operand.

Also here: a finite sum of extended reals times a nonnegative real is the sum of the products.
-/

noncomputable section

namespace Cert.LibIndexOps

open Idealize.ShloMosaic Idealize.ShloMosaic.ValueIdx

/-! ## Sums of extended reals and a nonnegative real factor -/

/-- A finite sum of extended reals times a nonnegative real is the sum of the products
    (multiplication by a nonnegative real distributes over every sum of extended reals). -/
theorem sum_mul_coe_nonneg {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A sum of two extended reals times a nonnegative real. -/
theorem add_mul_coe_nonneg (x y : EReal) (c : ℝ) (hc : 0 ≤ c) : (x + y) * (c : EReal) = x * (c : EReal) + y * (c : EReal) := by
  exact EReal.right_distrib_of_nonneg_of_ne_top (EReal.coe_nonneg.2 hc) (EReal.coe_ne_top c) x y

/-- `k` copies of an extended real `b`, divided by `k > 0`, are `b`. -/
theorem nsmul_mul_inv (k : ℕ) (hk : 0 < k) (b : EReal) : (k • b) * (((k : ℝ)⁻¹ : ℝ) : EReal) = b := by
  have hk' : (0 : ℝ) < (k : ℝ) := Nat.cast_pos.2 hk
  have hinv : (0 : ℝ) < ((k : ℝ)⁻¹ : ℝ) := inv_pos.2 hk'
  have hkE : (0 : EReal) < (k : EReal) := by exact_mod_cast hk
  induction b using EReal.rec with
  | bot =>
    -- a positive multiple of ⊥ is ⊥, and ⊥ times a positive real is ⊥
    rw [EReal.nsmul_eq_mul, EReal.mul_bot_of_pos hkE, EReal.bot_mul_coe_of_pos hinv]
  | top =>
    -- a positive multiple of ⊤ is ⊤, and ⊤ times a positive real is ⊤
    rw [EReal.nsmul_eq_mul, EReal.mul_top_of_pos hkE, EReal.top_mul_coe_of_pos hinv]
  | coe r =>
    -- for a real it is the real identity k * r * k⁻¹ = r
    rw [← EReal.coe_nsmul, ← EReal.coe_mul]
    congr 1
    rw [nsmul_eq_mul]
    field_simp

/-! ## The dimension numbers -/

/-- Rows of `[B, D]` updates added into an `[A, D]` operand at the positions `[B, 1]`. -/
abbrev rowScatterDims (A B D : Nat)
    (wf : ScatterDims.WF ⟨2, ![A, D]⟩ ⟨2, ![B, 1]⟩ ⟨2, ![B, D]⟩ [1] [0] [0] 1) :
    ScatterDims ⟨2, ![A, D]⟩ ⟨2, ![B, 1]⟩ ⟨2, ![B, D]⟩ where
  updateWindowDims := [1]
  insertedWindowDims := [0]
  scatterDimsToOperandDims := [0]
  indexVectorDim := 1
  wf := wf

/-- Scalars of `[B]` updates added into an `[A]` operand at the positions `[B, 1]`. -/
abbrev vecScatterDims (A B : Nat)
    (wf : ScatterDims.WF ⟨1, ![A]⟩ ⟨2, ![B, 1]⟩ ⟨1, ![B]⟩ [] [0] [0] 1) :
    ScatterDims ⟨1, ![A]⟩ ⟨2, ![B, 1]⟩ ⟨1, ![B]⟩ where
  updateWindowDims := []
  insertedWindowDims := [0]
  scatterDimsToOperandDims := [0]
  indexVectorDim := 1
  wf := wf

/-- Rows of an `[N, D]` operand taken at the positions `[E, 1]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Scalars of an `[N]` operand taken at the positions `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position word of update (or result) row `n`. -/
abbrev pos {B w : Nat} (idx : IVec ⟨2, ![B, 1]⟩ w) (n : Fin B) : BitVec w := idx (ix2 n ⟨0, Nat.one_pos⟩)

/-! ## The scatters read at an index -/

/-- On the operand's row axis the window of update `(n, f')` of a row scatter starts at row `n`'s position. -/
theorem rowScatter_start0 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h0 : 0 < 2) :
    (rowScatterDims A B D wf).start (ix2 n f') idx ⟨0, h0⟩ = (pos idx n).toInt := by
  unfold ScatterDims.start
  rw [dif_pos (show (⟨0, h0⟩ : Fin 2) ∈ (rowScatterDims A B D wf).scatterDimsToOperandDims from List.mem_singleton.mpr rfl)]
  have hsi : (rowScatterDims A B D wf).siIdx (ix2 n f') ⟨List.idxOf (⟨0, h0⟩ : Fin 2) (rowScatterDims A B D wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- On the operand's column axis the window of a row scatter's update starts at `0`. -/
theorem rowScatter_start1 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h1 : 1 < 2) :
    (rowScatterDims A B D wf).start (ix2 n f') idx ⟨1, h1⟩ = 0 := by
  unfold ScatterDims.start
  rw [dif_neg]
  intro h; have := List.mem_singleton.mp h; exact absurd (congrArg Fin.val this) Nat.one_ne_zero

/-- The row axis is an inserted axis: the window coordinate of a row scatter's update there is `0`. -/
theorem rowScatter_window0 {A B D : Nat}
    (wf : ScatterDims.WF ⟨2, ![A, D]⟩ ⟨2, ![B, 1]⟩ ⟨2, ![B, D]⟩ [1] [0] [0] 1)
    (n : Fin B) (f' : Fin D) (h0 : 0 < 2) :
    (rowScatterDims A B D wf).window (ix2 n f') ⟨0, h0⟩ = 0 := by
  unfold ScatterDims.window
  rw [dif_neg]
  intro h
  simp [ScatterDims.sKept, Shape.kept, List.mem_filter] at h

/-- On the column axis the window coordinate of update `(n, f')` of a row scatter is `f'`. -/
theorem rowScatter_window1 {A B D : Nat}
    (wf : ScatterDims.WF ⟨2, ![A, D]⟩ ⟨2, ![B, 1]⟩ ⟨2, ![B, D]⟩ [1] [0] [0] 1)
    (n : Fin B) (f' : Fin D) (h1 : 1 < 2) :
    (rowScatterDims A B D wf).window (ix2 n f') ⟨1, h1⟩ = f'.val := by
  unfold ScatterDims.window
  rw [dif_pos]
  · rfl
  · simp [ScatterDims.sKept, Shape.kept, List.mem_filter]

/-- The window of update `n` of a scalar scatter starts at `n`'s position. -/
theorem vecScatter_start0 {A B w : Nat}
    (wf : ScatterDims.WF ⟨1, ![A]⟩ ⟨2, ![B, 1]⟩ ⟨1, ![B]⟩ [] [0] [0] 1)
    (idx : IVec ⟨2, ![B, 1]⟩ w) (n : Fin B) (h0 : 0 < 1) :
    (vecScatterDims A B wf).start (ix1 n) idx ⟨0, h0⟩ = (pos idx n).toInt := by
  unfold ScatterDims.start
  rw [dif_pos (show (⟨0, h0⟩ : Fin 1) ∈ (vecScatterDims A B wf).scatterDimsToOperandDims from List.mem_singleton.mpr rfl)]
  have hsi : (vecScatterDims A B wf).siIdx (ix1 n) ⟨List.idxOf (⟨0, h0⟩ : Fin 1) (vecScatterDims A B wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- The operand's one axis is an inserted axis: the window coordinate of a scalar scatter's update is `0`. -/
theorem vecScatter_window0 {A B : Nat}
    (wf : ScatterDims.WF ⟨1, ![A]⟩ ⟨2, ![B, 1]⟩ ⟨1, ![B]⟩ [] [0] [0] 1)
    (n : Fin B) (h0 : 0 < 1) :
    (vecScatterDims A B wf).window (ix1 n) ⟨0, h0⟩ = 0 := by
  unfold ScatterDims.window
  rw [dif_neg]
  intro h
  simp [ScatterDims.sKept, Shape.kept, List.mem_filter] at h

/-- Update `(n, f')` of a row scatter lands on `(g, f)` exactly when row `n`'s position is `g` and `f' = f`. -/
theorem rowScatter_resultIdx?_eq_some {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (g : Fin A) (f : Fin D) :
    (rowScatterDims A B D wf).resultIdx? (ix2 n f') idx = some (ix2 g f) ↔ (pos idx n).toInt = (g.val : Int) ∧ f' = f := by
  have hg := g.isLt
  have hf' := f'.isLt
  unfold ScatterDims.resultIdx?
  constructor
  · intro h
    split at h
    · rename_i hc
      have h' := Option.some.inj h
      have e0 : ((rowScatterDims A B D wf).start (ix2 n f') idx ⟨0, Nat.zero_lt_two⟩
          + ((rowScatterDims A B D wf).window (ix2 n f') ⟨0, Nat.zero_lt_two⟩ : Int)).toNat = g.val :=
        congrArg (fun i : (⟨2, ![A, D]⟩ : Shape).Idx => (i ⟨0, Nat.zero_lt_two⟩).val) h'
      have e1 : ((rowScatterDims A B D wf).start (ix2 n f') idx ⟨1, Nat.one_lt_two⟩
          + ((rowScatterDims A B D wf).window (ix2 n f') ⟨1, Nat.one_lt_two⟩ : Int)).toNat = f.val :=
        congrArg (fun i : (⟨2, ![A, D]⟩ : Shape).Idx => (i ⟨1, Nat.one_lt_two⟩).val) h'
      have c0 := (hc ⟨0, Nat.zero_lt_two⟩).1
      rw [rowScatter_start0, rowScatter_window0] at e0 c0
      rw [rowScatter_start1, rowScatter_window1] at e1
      refine ⟨by omega, Fin.ext (by omega)⟩
    · exact absurd h (by simp)
  · rintro ⟨hp, rfl⟩
    have hc : ∀ a, 0 ≤ (rowScatterDims A B D wf).start (ix2 n f') idx a + ((rowScatterDims A B D wf).window (ix2 n f') a : Int)
        ∧ (rowScatterDims A B D wf).start (ix2 n f') idx a + ((rowScatterDims A B D wf).window (ix2 n f') a : Int)
          < ((⟨2, ![A, D]⟩ : Shape).size a : Int) := by
      intro a
      match a with
      | ⟨0, h0⟩ =>
        rw [rowScatter_start0, rowScatter_window0, hp]
        show (0 : Int) ≤ (g.val : Int) + ((0 : Nat) : Int) ∧ (g.val : Int) + ((0 : Nat) : Int) < (A : Int)
        omega
      | ⟨1, h1⟩ =>
        rw [rowScatter_start1, rowScatter_window1]
        show (0 : Int) ≤ 0 + (f'.val : Int) ∧ 0 + (f'.val : Int) < (D : Int)
        omega
    rw [dif_pos hc]
    congr 1
    funext a
    refine Fin.ext ?_
    match a with
    | ⟨0, h0⟩ =>
      show ((rowScatterDims A B D wf).start (ix2 n f') idx ⟨0, h0⟩
          + ((rowScatterDims A B D wf).window (ix2 n f') ⟨0, h0⟩ : Int)).toNat = g.val
      rw [rowScatter_start0, rowScatter_window0, hp]; omega
    | ⟨1, h1⟩ =>
      show ((rowScatterDims A B D wf).start (ix2 n f') idx ⟨1, h1⟩
          + ((rowScatterDims A B D wf).window (ix2 n f') ⟨1, h1⟩ : Int)).toNat = f'.val
      rw [rowScatter_start1, rowScatter_window1]; omega

/-- Update `n` of a scalar scatter lands on `g` exactly when its position is `g`. -/
theorem vecScatter_resultIdx?_eq_some {A B w : Nat}
    (wf : ScatterDims.WF ⟨1, ![A]⟩ ⟨2, ![B, 1]⟩ ⟨1, ![B]⟩ [] [0] [0] 1)
    (idx : IVec ⟨2, ![B, 1]⟩ w) (n : Fin B) (g : Fin A) :
    (vecScatterDims A B wf).resultIdx? (ix1 n) idx = some (ix1 g) ↔ (pos idx n).toInt = (g.val : Int) := by
  have hg := g.isLt
  unfold ScatterDims.resultIdx?
  constructor
  · intro h
    split at h
    · rename_i hc
      have h' := Option.some.inj h
      have e0 : ((vecScatterDims A B wf).start (ix1 n) idx ⟨0, Nat.one_pos⟩
          + ((vecScatterDims A B wf).window (ix1 n) ⟨0, Nat.one_pos⟩ : Int)).toNat = g.val :=
        congrArg (fun i : (⟨1, ![A]⟩ : Shape).Idx => (i ⟨0, Nat.one_pos⟩).val) h'
      have c0 := (hc ⟨0, Nat.one_pos⟩).1
      rw [vecScatter_start0, vecScatter_window0] at e0 c0
      omega
    · exact absurd h (by simp)
  · intro hp
    have hc : ∀ a, 0 ≤ (vecScatterDims A B wf).start (ix1 n) idx a + ((vecScatterDims A B wf).window (ix1 n) a : Int)
        ∧ (vecScatterDims A B wf).start (ix1 n) idx a + ((vecScatterDims A B wf).window (ix1 n) a : Int)
          < ((⟨1, ![A]⟩ : Shape).size a : Int) := by
      intro a
      match a with
      | ⟨0, h0⟩ =>
        rw [vecScatter_start0, vecScatter_window0, hp]
        show (0 : Int) ≤ (g.val : Int) + ((0 : Nat) : Int) ∧ (g.val : Int) + ((0 : Nat) : Int) < (A : Int)
        omega
    rw [dif_pos hc]
    congr 1
    funext a
    refine Fin.ext ?_
    match a with
    | ⟨0, h0⟩ =>
      show ((vecScatterDims A B wf).start (ix1 n) idx ⟨0, h0⟩
          + ((vecScatterDims A B wf).window (ix1 n) ⟨0, h0⟩ : Int)).toNat = g.val
      rw [vecScatter_start0, vecScatter_window0, hp]; omega

/-- THE ROW SCATTER-ADD READ AT `(g, f)`: the operand's element plus the sum, over the update rows whose
    position is `g`, of the update's element in column `f`. -/
theorem rowScatterAdd_apply {A B D w : Nat}
    (wf : ScatterDims.WF ⟨2, ![A, D]⟩ ⟨2, ![B, 1]⟩ ⟨2, ![B, D]⟩ [1] [0] [0] 1)
    (x : (⟨2, ![A, D]⟩ : Shape).Idx → EReal) (idx : IVec ⟨2, ![B, 1]⟩ w) (upd : (⟨2, ![B, D]⟩ : Shape).Idx → EReal)
    (g : Fin A) (f : Fin D) :
    Ideal.hostScatterAdd (rowScatterDims A B D wf) x idx upd (ix2 g f)
      = x (ix2 g f) + ∑ n ∈ Finset.univ.filter (fun n : Fin B => (pos idx n).toInt = (g.val : Int)), upd (ix2 n f) := by
  unfold Ideal.hostScatterAdd
  congr 1
  have key : ∀ j : (⟨2, ![B, D]⟩ : Shape).Idx, (rowScatterDims A B D wf).resultIdx? j idx = some (ix2 g f) →
      (pos idx (j 0)).toInt = (g.val : Int) ∧ j = ix2 (j 0) f := by
    intro j hj
    rw [eq_ix2 j] at hj
    have h := (rowScatter_resultIdx?_eq_some wf idx (j 0) (j 1) g f).mp hj
    refine ⟨h.1, ?_⟩
    rw [← h.2]; exact eq_ix2 j
  refine Finset.sum_nbij' (fun j => j 0) (fun n => ix2 n f) ?_ ?_ ?_ ?_ ?_
  · intro j hj
    exact Finset.mem_filter.mpr ⟨Finset.mem_univ _, (key j (Finset.mem_filter.mp hj).2).1⟩
  · intro n hn
    exact Finset.mem_filter.mpr ⟨Finset.mem_univ _,
      (rowScatter_resultIdx?_eq_some wf idx n f g f).mpr ⟨(Finset.mem_filter.mp hn).2, rfl⟩⟩
  · intro j hj
    exact (key j (Finset.mem_filter.mp hj).2).2.symm
  · intro n _
    rfl
  · intro j hj
    exact congrArg upd (key j (Finset.mem_filter.mp hj).2).2

/-- THE SCALAR SCATTER-ADD READ AT `g`: the operand's element plus the sum of the updates whose position is `g`. -/
theorem vecScatterAdd_apply {A B w : Nat}
    (wf : ScatterDims.WF ⟨1, ![A]⟩ ⟨2, ![B, 1]⟩ ⟨1, ![B]⟩ [] [0] [0] 1)
    (x : (⟨1, ![A]⟩ : Shape).Idx → EReal) (idx : IVec ⟨2, ![B, 1]⟩ w) (upd : (⟨1, ![B]⟩ : Shape).Idx → EReal)
    (g : Fin A) :
    Ideal.hostScatterAdd (vecScatterDims A B wf) x idx upd (ix1 g)
      = x (ix1 g) + ∑ n ∈ Finset.univ.filter (fun n : Fin B => (pos idx n).toInt = (g.val : Int)), upd (ix1 n) := by
  unfold Ideal.hostScatterAdd
  congr 1
  have key : ∀ j : (⟨1, ![B]⟩ : Shape).Idx, (vecScatterDims A B wf).resultIdx? j idx = some (ix1 g) →
      (pos idx (j 0)).toInt = (g.val : Int) := by
    intro j hj
    rw [eq_ix1 j] at hj
    exact (vecScatter_resultIdx?_eq_some wf idx (j 0) g).mp hj
  refine Finset.sum_nbij' (fun j => j 0) (fun n => ix1 n) ?_ ?_ ?_ ?_ ?_
  · intro j hj
    exact Finset.mem_filter.mpr ⟨Finset.mem_univ _, key j (Finset.mem_filter.mp hj).2⟩
  · intro n hn
    exact Finset.mem_filter.mpr ⟨Finset.mem_univ _,
      (vecScatter_resultIdx?_eq_some wf idx n g).mpr (Finset.mem_filter.mp hn).2⟩
  · intro j _
    exact (eq_ix1 j).symm
  · intro n _
    rfl
  · intro j _
    exact congrArg upd (eq_ix1 j)

/-! ## The gathers read at an index -/

/-- The operand row a position word names: read signed, clamped into `[0, N - 1]`. -/
def clampRow {w : Nat} (N : Nat) (hN : 0 < N) (p : BitVec w) : Fin N := ⟨min p.toInt.toNat (N - 1), by omega⟩

/-- THE ROW GATHER READ AT `(e, f)`: the operand at the clamped position of row `e`, column `f`. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGatherDims N E D wf) x idx (ix2 e f) = x (ix2 (clampRow N hN (pos idx e)) f) := by
  unfold Host.gather
  congr 1
  funext a
  refine Fin.ext ?_
  show (rowGatherDims N E D wf).start (ix2 e f) idx a + (rowGatherDims N E D wf).batchCoord (ix2 e f) a
    + (rowGatherDims N E D wf).offCoord (ix2 e f) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E D wf).startIndexMap from List.mem_singleton.mpr rfl)]
    have hsi : (rowGatherDims N E D wf).siIdx (ix2 e f) ⟨List.idxOf (⟨0, h0⟩ : Fin 2) (rowGatherDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hns : (⟨1, h1⟩ : Fin 2) ∉ (rowGatherDims N E D wf).startIndexMap := by
      intro h; have := List.mem_singleton.mp h; exact absurd (congrArg Fin.val this) Nat.one_ne_zero
    have hk : (⟨1, h1⟩ : Fin 2) ∈ (rowGatherDims N E D wf).sKept :=
      (GatherDims.mem_sKept _ _).mpr ⟨by intro h; have := List.mem_singleton.mp h; exact absurd (congrArg Fin.val this) Nat.one_ne_zero, List.not_mem_nil⟩
    unfold GatherDims.start GatherDims.offCoord
    rw [dif_neg hns, dif_pos hk]
    simp only [Nat.zero_add, Nat.add_zero]
    rfl

/-- THE SCALAR GATHER READ AT `e`: the operand at the clamped position of `e`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (pos idx e))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- A position that is a row number of the operand is its own clamp. -/
theorem clampRow_of_toInt_eq {w : Nat} (N : Nat) (hN : 0 < N) (p : BitVec w) (g : Fin N) (h : p.toInt = (g.val : Int)) :
    clampRow N hN p = g := by
  refine Fin.ext ?_
  show min p.toInt.toNat (N - 1) = g.val
  have := g.isLt
  rw [h]
  omega

end Cert.LibIndexOps

end
-- ==== Proof.Spec.lean ====
/-
  A two-term complex graph convolution, in two arrangements.

  Every edge `e` has a target (an integer `row e`; an edge whose target is no node's number lands nowhere), a
  source node `src e`, and for `k = 0, 1` two scale coefficients `a k e` and `b k e`.  Nodes carry feature rows
  `xr`, `xi`; `w k` is a square weight matrix and `bias` a row.

  EDGE FIRST: each edge combines the feature rows of its source, `a k e · xr (src e) ∓ b k e · xi (src e)`, multiplies
  the combined row by `w k`, adds the two terms `k = 0, 1`; node `n` receives the sum of these rows over the edges
  that land on it, plus the bias.

  NODE FIRST: for each `k`, node `n` first receives the sums over its landing edges of `a k e · xr (src e)` and of
  `b k e · xi (src e)`; their difference (or sum) is multiplied by `w k`; the two terms are added, plus the bias.

  Over the real numbers the two are equal, the product distributing over the sums and the finite sums exchanging;
  at an infinite entry they need not be.  The functions are stated here on the extended reals; that they agree on real
  entries is proved separately.
-/
import Idealize.ShloMosaic.PureOps.Ideal

noncomputable section

namespace Cert.Spec

variable {N E C : ℕ}

/-- The edges that land on node `n`. -/
def landing (row : Fin E → ℤ) (n : Fin N) : Finset (Fin E) :=
  Finset.univ.filter (fun e : Fin E => row e = (n.val : ℤ))

/-- Edge first, the combination a difference. -/
def edgeFirstSub (row : Fin E → ℤ) (src : Fin E → Fin N) (a b : Fin 2 → Fin E → EReal)
    (xr xi : Fin N → Fin C → EReal) (w : Fin 2 → Fin C → Fin C → EReal) (bias : Fin C → EReal)
    (n : Fin N) (o : Fin C) : EReal :=
  (∑ e ∈ landing row n,
      ((∑ c : Fin C, (a 0 e * xr (src e) c - b 0 e * xi (src e) c) * w 0 c o)
        + ∑ c : Fin C, (a 1 e * xr (src e) c - b 1 e * xi (src e) c) * w 1 c o)) + bias o

/-- Edge first, the combination a sum. -/
def edgeFirstAdd (row : Fin E → ℤ) (src : Fin E → Fin N) (a b : Fin 2 → Fin E → EReal)
    (xr xi : Fin N → Fin C → EReal) (w : Fin 2 → Fin C → Fin C → EReal) (bias : Fin C → EReal)
    (n : Fin N) (o : Fin C) : EReal :=
  (∑ e ∈ landing row n,
      ((∑ c : Fin C, (a 0 e * xr (src e) c + b 0 e * xi (src e) c) * w 0 c o)
        + ∑ c : Fin C, (a 1 e * xr (src e) c + b 1 e * xi (src e) c) * w 1 c o)) + bias o

/-- Node first, the combination a difference. -/
def nodeFirstSub (row : Fin E → ℤ) (src : Fin E → Fin N) (a b : Fin 2 → Fin E → EReal)
    (xr xi : Fin N → Fin C → EReal) (w : Fin 2 → Fin C → Fin C → EReal) (bias : Fin C → EReal)
    (n : Fin N) (o : Fin C) : EReal :=
  (∑ k : Fin 2, ∑ c : Fin C,
      ((∑ e ∈ landing row n, a k e * xr (src e) c) - ∑ e ∈ landing row n, b k e * xi (src e) c) * w k c o) + bias o

/-- Node first, the combination a sum. -/
def nodeFirstAdd (row : Fin E → ℤ) (src : Fin E → Fin N) (a b : Fin 2 → Fin E → EReal)
    (xr xi : Fin N → Fin C → EReal) (w : Fin 2 → Fin C → Fin C → EReal) (bias : Fin C → EReal)
    (n : Fin N) (o : Fin C) : EReal :=
  (∑ k : Fin 2, ∑ c : Fin C,
      ((∑ e ∈ landing row n, a k e * xr (src e) c) + ∑ e ∈ landing row n, b k e * xi (src e) c) * w k c o) + bias o

end Cert.Spec

end
-- ==== Proof.Args.lean ====
/-
  The argument arrays of the graph convolution, each read in the role it plays.

  The target of edge `e` is the word of the row array at `e`, read as a signed integer.  Its source is the word of
  the column array at `e`, a negative word first raised by the number of nodes, then read signed and clamped to a
  node's number.  The coefficient, feature, weight and bias arrays are read at their coordinates.
-/
import Idealize.ShloMosaic.Lib.ValueIdx
import proofs.«119710_j9560597201099_2_alg».proof.Proof.LibIndexOps

noncomputable section

namespace Cert.Args

open Idealize.ShloMosaic Idealize.ShloMosaic.ValueIdx

/-- The target of edge `e`: its row word read signed. -/
def row (x6 : IVec ⟨1, ![1600000]⟩ 32) (e : Fin 1600000) : ℤ := (x6 (ix1 e)).toInt

/-- The column word of edge `e` with a negative word raised by the number of nodes. -/
def wrapped (x7 : IVec ⟨1, ![1600000]⟩ 32) (e : Fin 1600000) : BitVec 32 :=
  Scalar.select (IntOp.cmpi .slt (x7 (ix1 e)) 0#32) (IntOp.addi (x7 (ix1 e)) 100000#32) (x7 (ix1 e))

/-- The source node of edge `e`. -/
def src (x7 : IVec ⟨1, ![1600000]⟩ 32) (e : Fin 1600000) : Fin 100000 :=
  Cert.LibIndexOps.clampRow 100000 (by norm_num) (wrapped x7 e)

/-- A coefficient array `[2, edges]` at term `k`, edge `e`. -/
def coef (x : (⟨2, ![2, 1600000]⟩ : Shape).Idx → EReal) (k : Fin 2) (e : Fin 1600000) : EReal := x (ix2 k e)

/-- A feature array `[nodes, 64]` at node `n`, channel `c`. -/
def feat (x : (⟨2, ![100000, 64]⟩ : Shape).Idx → EReal) (n : Fin 100000) (c : Fin 64) : EReal := x (ix2 n c)

/-- The weight array `[2, 64, 64]` at term `k`, input channel `c`, output channel `o`. -/
def wt (x : (⟨3, ![2, 64, 64]⟩ : Shape).Idx → EReal) (k : Fin 2) (c o : Fin 64) : EReal := x (ix3 k c o)

/-- The bias row `[1, 64]` at output channel `o`. -/
def biasRow (x : (⟨2, ![1, 64]⟩ : Shape).Idx → EReal) (o : Fin 64) : EReal := x (ix2 ⟨0, Nat.one_pos⟩ o)

end Cert.Args

end
-- ==== Proof.KerBody.lean ====
import proofs.«119710_j9560597201099_2_alg».proof.Proof.Gen.KernelIdeal.Frame
import proofs.«119710_j9560597201099_2_alg».proof.Proof.LibPlainDot
import proofs.«119710_j9560597201099_2_alg».proof.Proof.LibLayout
import proofs.«119710_j9560597201099_2_alg».proof.Proof.LibIndexOps
import proofs.«119710_j9560597201099_2_alg».proof.Proof.Spec
import proofs.«119710_j9560597201099_2_alg».proof.Proof.Args
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open Idealize.ShloMosaic Idealize.ShloMosaic.TcCoe Idealize.SL.Sem Idealize.ShloMosaic.ValueIdx

/-!
# The kernel body at one entry

One grid point holds 3200 edges.  Its inputs are the edges' gathered real and imaginary source rows `x0`, `x1`
(3200 × 64), their four scale coefficients `x2` (3200 × 4: columns `a₀, a₁, b₀, b₁`) and the two weight matrices `x3`
(2 × 64 × 64).  Entry `(p, q)` of the first stored block is
`Σ_c (a₀ p · x0 p c − b₀ p · x1 p c) · w₀ c q + Σ_c (a₁ p · x0 p c − b₁ p · x1 p c) · w₁ c q`, and of the second the
same with `b · x0 + a · x1` combined: each product into a zero accumulator is a plain sum over the contracted channel,
changes of float format are the identity, and the zero the accumulation starts from is absorbed.
-/

namespace Cert.KerBody

open Cert.KernelIdeal Cert.KernelIdeal.Gen

theorem hz2 : (![0, 0] : Fin 2 → Nat) = fun _ => 0 := funext fun a => by fin_cases a <;> rfl

/-! ## The loads -/

/-- The whole block of gathered rows. -/
theorem ld_whole (x : Vec Ideal S3200x64 .bf16) : View.ld x r0_0 = x := View.ld_unit_zero hz2 _ x

/-- Column 0 of the scale block. -/
theorem ld_col0 (x2 : Vec Ideal S3200x4 .f32) (p : Fin 3200) (u : Fin 1) :
    View.ld x2 r0_1 (ix2 p u) = x2 (ix2 p (0 : Fin 4)) := by
  show x2 (r0_1.emb (ix2 p u)) = _
  refine congrArg x2 (funext fun a => Fin.ext ?_)
  match a with
  | ⟨0, _⟩ => show 0 + 1 * p.val = p.val; omega
  | ⟨1, _⟩ => show 0 + 1 * u.val = 0; omega

/-- Column 2 of the scale block. -/
theorem ld_col2 (x2 : Vec Ideal S3200x4 .f32) (p : Fin 3200) (u : Fin 1) :
    View.ld x2 r0_2 (ix2 p u) = x2 (ix2 p (2 : Fin 4)) := by
  show x2 (r0_2.emb (ix2 p u)) = _
  refine congrArg x2 (funext fun a => Fin.ext ?_)
  match a with
  | ⟨0, _⟩ => show 0 + 1 * p.val = p.val; omega
  | ⟨1, _⟩ => show 2 + 1 * u.val = 2; omega

/-- Column 1 of the scale block. -/
theorem ld_col1 (x2 : Vec Ideal S3200x4 .f32) (p : Fin 3200) (u : Fin 1) :
    View.ld x2 r0_4 (ix2 p u) = x2 (ix2 p (1 : Fin 4)) := by
  show x2 (r0_4.emb (ix2 p u)) = _
  refine congrArg x2 (funext fun a => Fin.ext ?_)
  match a with
  | ⟨0, _⟩ => show 0 + 1 * p.val = p.val; omega
  | ⟨1, _⟩ => show 1 + 1 * u.val = 1; omega

/-- Column 3 of the scale block. -/
theorem ld_col3 (x2 : Vec Ideal S3200x4 .f32) (p : Fin 3200) (u : Fin 1) :
    View.ld x2 r0_5 (ix2 p u) = x2 (ix2 p (3 : Fin 4)) := by
  show x2 (r0_5.emb (ix2 p u)) = _
  refine congrArg x2 (funext fun a => Fin.ext ?_)
  match a with
  | ⟨0, _⟩ => show 0 + 1 * p.val = p.val; omega
  | ⟨1, _⟩ => show 3 + 1 * u.val = 3; omega

/-- The first weight matrix. -/
theorem ld_w0 (x3 : Vec Ideal S2x64x64 .f32) (u : Fin 1) (c q : Fin 64) :
    View.ld x3 r0_3 (ix3 u c q) = x3 (ix3 (0 : Fin 2) c q) := by
  show x3 (r0_3.emb (ix3 u c q)) = _
  refine congrArg x3 (funext fun a => Fin.ext ?_)
  match a with
  | ⟨0, _⟩ => show 0 + 1 * u.val = 0; omega
  | ⟨1, _⟩ => show 0 + 1 * c.val = c.val; omega
  | ⟨2, _⟩ => show 0 + 1 * q.val = q.val; omega

/-- The second weight matrix. -/
theorem ld_w1 (x3 : Vec Ideal S2x64x64 .f32) (u : Fin 1) (c q : Fin 64) :
    View.ld x3 r0_6 (ix3 u c q) = x3 (ix3 (1 : Fin 2) c q) := by
  show x3 (r0_6.emb (ix3 u c q)) = _
  refine congrArg x3 (funext fun a => Fin.ext ?_)
  match a with
  | ⟨0, _⟩ => show 1 + 1 * u.val = 1; omega
  | ⟨1, _⟩ => show 0 + 1 * c.val = c.val; omega
  | ⟨2, _⟩ => show 0 + 1 * q.val = q.val; omega

/-! ## The small payloads -/

/-- A gathered block widened to single precision is itself. -/
theorem pay4_eq (v0 : Vec Ideal S3200x64 .bf16) : k0_pay4 v0 = v0 := by
  unfold k0_pay4
  funext i
  show (shapeCast S3200x64 v0 shapeCasts_S3200x64_S3200x64) i = v0 i
  rw [shapeCast_self]

theorem pay5_eq (v3 : Vec Ideal S3200x64 .bf16) : k0_pay5 v3 = v3 := by
  unfold k0_pay5
  funext i
  show (shapeCast S3200x64 v3 shapeCasts_S3200x64_S3200x64) i = v3 i
  rw [shapeCast_self]

theorem pay6_eq (v : Vec Ideal S3200x1 .f32) : k0_pay6 v = v := by
  unfold k0_pay6; exact shapeCast_self _ _
theorem pay7_eq (v : Vec Ideal S3200x1 .f32) : k0_pay7 v = v := by
  unfold k0_pay7; exact shapeCast_self _ _
theorem pay11_eq (v : Vec Ideal S3200x1 .f32) : k0_pay11 v = v := by
  unfold k0_pay11; exact shapeCast_self _ _
theorem pay12_eq (v : Vec Ideal S3200x1 .f32) : k0_pay12 v = v := by
  unfold k0_pay12; exact shapeCast_self _ _

/-- A `[1, 64, 64]` weight slice viewed as a `[64, 64]` matrix. -/
theorem wcast_apply (v : Vec Ideal S1x64x64 .f32) (c q : Fin 64) :
    shapeCast S64x64 v shapeCasts_S1x64x64_S64x64 (ix2 c q) = v (ix3 (0 : Fin 1) c q) :=
  shapeCast_apply v shapeCasts_S1x64x64_S64x64 _ _ (by
    rw [Shape.rowMajor_val_three, Shape.rowMajor_val_two]
    show (0 * 64 + c.val) * 64 + q.val = c.val * 64 + q.val
    omega)

theorem pay8_apply (v : Vec Ideal S1x64x64 .f32) (c q : Fin 64) : k0_pay8 v (ix2 c q) = v (ix3 (0 : Fin 1) c q) := by
  unfold k0_pay8
  exact wcast_apply v c q

theorem pay1_apply (v : Vec Ideal S1x64x64 .f32) (c q : Fin 64) : k0_pay1 v (ix2 c q) = v (ix3 (0 : Fin 1) c q) := by
  unfold k0_pay1
  exact wcast_apply v c q

/-! ## The combined rows and the products -/

theorem isPlain : Cert.PlainDot.IsPlain dot_S3200x64_S64x64_S3200x64_1_0_0_1_n_n := ⟨rfl, rfl, rfl, rfl, rfl, rfl⟩

/-- The zero the accumulation starts from. -/
theorem zero_word : (Scalar.ofBits .f32 0x00000000#32 : Ideal .f32) = (0 : EReal) := Ideal.ofBits_zero_f32

/-- A column of coefficients spread across the channels. -/
theorem spread_apply (v : FVec Ideal S3200x1 .f32) (p : Fin 3200) (c : Fin 64) :
    broadcastTo S3200x64 v broadcasts_S3200x1_S3200x64 (ix2 p c) = v (ix2 p (0 : Fin 1)) :=
  Cert.LibLayout.broadcastTo_a1_ab_apply v broadcasts_S3200x1_S3200x64 p c

/-- The difference combination of the second term, `a₁ · x0 − b₁ · x1`, at `(p, c)`. -/
theorem pay13_apply (v0 v3 : Vec Ideal S3200x64 .bf16) (v31 v33 : Vec Ideal S3200x1 .f32) (p : Fin 3200) (c : Fin 64) :
    k0_pay13 v0 v3 v31 v33 (ix2 p c) = v31 (ix2 p (0 : Fin 1)) * v0 (ix2 p c) - v33 (ix2 p (0 : Fin 1)) * v3 (ix2 p c) := by
  unfold k0_pay13
  show broadcastTo S3200x64 (k0_pay11 v31) broadcasts_S3200x1_S3200x64 (ix2 p c) * k0_pay4 v0 (ix2 p c)
      - broadcastTo S3200x64 (k0_pay12 v33) broadcasts_S3200x1_S3200x64 (ix2 p c) * k0_pay5 v3 (ix2 p c) = _
  rw [spread_apply, spread_apply, pay11_eq, pay12_eq, pay4_eq, pay5_eq]

/-- The first term of the difference output: `Σ_c (a₀ · x0 − b₀ · x1) · w₀` at `(p, q)`. -/
theorem pay9_apply (v0 v3 : Vec Ideal S3200x64 .bf16) (v8 v10 : Vec Ideal S3200x1 .f32) (v24 : Vec Ideal S1x64x64 .f32)
    (p : Fin 3200) (q : Fin 64) :
    k0_pay9 v0 v3 v8 v10 v24 (ix2 p q)
      = ∑ c : Fin 64, (v8 (ix2 p (0 : Fin 1)) * v0 (ix2 p c) - v10 (ix2 p (0 : Fin 1)) * v3 (ix2 p c)) * v24 (ix3 (0 : Fin 1) c q) := by
  unfold k0_pay9
  show (Scalar.ofBits .f32 0x00000000#32 : Ideal .f32) + matmul dot_S3200x64_S64x64_S3200x64_1_0_0_1_n_n none
      (truncf .bf16 (subf (mulf (broadcastTo S3200x64 (k0_pay6 v8) broadcasts_S3200x1_S3200x64) (k0_pay4 v0))
        (mulf (broadcastTo S3200x64 (k0_pay7 v10) broadcasts_S3200x1_S3200x64) (k0_pay5 v3))) bitsLt_bf16_f32)
      (k0_pay8 v24) (constant S3200x64 .f32 0x00000000#32) (ix2 p q) = _
  rw [zero_word, zero_add]
  refine (Cert.PlainDot.matmul_apply _ isPlain none _ _ p q).trans ?_
  refine Finset.sum_congr rfl fun c _ => ?_
  rw [pay8_apply]
  congr 1
  show broadcastTo S3200x64 (k0_pay6 v8) broadcasts_S3200x1_S3200x64 (ix2 p c) * k0_pay4 v0 (ix2 p c)
      - broadcastTo S3200x64 (k0_pay7 v10) broadcasts_S3200x1_S3200x64 (ix2 p c) * k0_pay5 v3 (ix2 p c) = _
  rw [spread_apply, spread_apply, pay6_eq, pay7_eq, pay4_eq, pay5_eq]

/-- The first term of the sum output: `Σ_c (b₀ · x0 + a₀ · x1) · w₀` at `(p, q)`. -/
theorem pay10_apply (v0 v3 : Vec Ideal S3200x64 .bf16) (v8 v10 : Vec Ideal S3200x1 .f32) (v24 : Vec Ideal S1x64x64 .f32)
    (p : Fin 3200) (q : Fin 64) :
    k0_pay10 v0 v3 v8 v10 v24 (ix2 p q)
      = ∑ c : Fin 64, (v10 (ix2 p (0 : Fin 1)) * v0 (ix2 p c) + v8 (ix2 p (0 : Fin 1)) * v3 (ix2 p c)) * v24 (ix3 (0 : Fin 1) c q) := by
  unfold k0_pay10
  show (Scalar.ofBits .f32 0x00000000#32 : Ideal .f32) + matmul dot_S3200x64_S64x64_S3200x64_1_0_0_1_n_n none
      (truncf .bf16 (addf (mulf (broadcastTo S3200x64 (k0_pay7 v10) broadcasts_S3200x1_S3200x64) (k0_pay4 v0))
        (mulf (broadcastTo S3200x64 (k0_pay6 v8) broadcasts_S3200x1_S3200x64) (k0_pay5 v3))) bitsLt_bf16_f32)
      (k0_pay8 v24) (constant S3200x64 .f32 0x00000000#32) (ix2 p q) = _
  rw [zero_word, zero_add]
  refine (Cert.PlainDot.matmul_apply _ isPlain none _ _ p q).trans ?_
  refine Finset.sum_congr rfl fun c _ => ?_
  rw [pay8_apply]
  congr 1
  show broadcastTo S3200x64 (k0_pay7 v10) broadcasts_S3200x1_S3200x64 (ix2 p c) * k0_pay4 v0 (ix2 p c)
      + broadcastTo S3200x64 (k0_pay6 v8) broadcasts_S3200x1_S3200x64 (ix2 p c) * k0_pay5 v3 (ix2 p c) = _
  rw [spread_apply, spread_apply, pay6_eq, pay7_eq, pay4_eq, pay5_eq]

/-- The difference output: the first term plus `Σ_c` (the second combined row) `· w₁`. -/
theorem pay2_apply (v28 v39 : FVec Ideal S3200x64 .f32) (v47 : Vec Ideal S1x64x64 .f32) (p : Fin 3200) (q : Fin 64) :
    k0_pay2 v28 v39 v47 (ix2 p q) = v28 (ix2 p q) + ∑ c : Fin 64, v39 (ix2 p c) * v47 (ix3 (0 : Fin 1) c q) := by
  unfold k0_pay2
  show v28 (ix2 p q) + matmul dot_S3200x64_S64x64_S3200x64_1_0_0_1_n_n none (truncf .bf16 v39 bitsLt_bf16_f32)
      (k0_pay1 v47) (constant S3200x64 .f32 0x00000000#32) (ix2 p q) = _
  congr 1
  refine (Cert.PlainDot.matmul_apply _ isPlain none _ _ p q).trans ?_
  refine Finset.sum_congr rfl fun c _ => ?_
  rw [pay1_apply]
  rfl

/-- The sum output: the first term plus `Σ_c (b₁ · x0 + a₁ · x1) · w₁`. -/
theorem pay3_apply (v2 v5 v30 : FVec Ideal S3200x64 .f32) (v32 v34 : FVec Ideal S3200x1 .f32) (v47 : Vec Ideal S1x64x64 .f32)
    (p : Fin 3200) (q : Fin 64) :
    k0_pay3 v2 v5 v30 v32 v34 v47 (ix2 p q)
      = v30 (ix2 p q) + ∑ c : Fin 64, (v34 (ix2 p (0 : Fin 1)) * v2 (ix2 p c) + v32 (ix2 p (0 : Fin 1)) * v5 (ix2 p c)) * v47 (ix3 (0 : Fin 1) c q) := by
  unfold k0_pay3
  show v30 (ix2 p q) + matmul dot_S3200x64_S64x64_S3200x64_1_0_0_1_n_n none
      (truncf .bf16 (addf (mulf (broadcastTo S3200x64 v34 broadcasts_S3200x1_S3200x64) v2)
        (mulf (broadcastTo S3200x64 v32 broadcasts_S3200x1_S3200x64) v5)) bitsLt_bf16_f32)
      (k0_pay1 v47) (constant S3200x64 .f32 0x00000000#32) (ix2 p q) = _
  congr 1
  refine (Cert.PlainDot.matmul_apply _ isPlain none _ _ p q).trans ?_
  refine Finset.sum_congr rfl fun c _ => ?_
  rw [pay1_apply]
  congr 1
  show broadcastTo S3200x64 v34 broadcasts_S3200x1_S3200x64 (ix2 p c) * v2 (ix2 p c)
      + broadcastTo S3200x64 v32 broadcasts_S3200x1_S3200x64 (ix2 p c) * v5 (ix2 p c) = _
  rw [spread_apply, spread_apply]

/-! ## The two stored blocks -/

/-- THE DIFFERENCE BLOCK at `(p, q)`. -/
theorem out4_apply (x0 x1 : Vec Ideal S3200x64 .bf16) (x2 : Vec Ideal S3200x4 .f32) (x3 : Vec Ideal S2x64x64 .f32)
    (p : Fin 3200) (q : Fin 64) :
    out0_4 x0 x1 x2 x3 (ix2 p q)
      = (∑ c : Fin 64, (x2 (ix2 p (0 : Fin 4)) * x0 (ix2 p c) - x2 (ix2 p (2 : Fin 4)) * x1 (ix2 p c)) * x3 (ix3 (0 : Fin 2) c q))
        + ∑ c : Fin 64, (x2 (ix2 p (1 : Fin 4)) * x0 (ix2 p c) - x2 (ix2 p (3 : Fin 4)) * x1 (ix2 p c)) * x3 (ix3 (1 : Fin 2) c q) := by
  unfold out0_4
  rw [View.canon_unit_zero hz2, pay2_apply, pay9_apply, ld_whole, ld_whole]
  congr 1
  · refine Finset.sum_congr rfl fun c _ => ?_
    rw [ld_col0, ld_col2, ld_w0]
  · refine Finset.sum_congr rfl fun c _ => ?_
    rw [pay13_apply, ld_col1, ld_col3, ld_w1]

/-- THE SUM BLOCK at `(p, q)`. -/
theorem out5_apply (x0 x1 : Vec Ideal S3200x64 .bf16) (x2 : Vec Ideal S3200x4 .f32) (x3 : Vec Ideal S2x64x64 .f32)
    (p : Fin 3200) (q : Fin 64) :
    out0_5 x0 x1 x2 x3 (ix2 p q)
      = (∑ c : Fin 64, (x2 (ix2 p (2 : Fin 4)) * x0 (ix2 p c) + x2 (ix2 p (0 : Fin 4)) * x1 (ix2 p c)) * x3 (ix3 (0 : Fin 2) c q))
        + ∑ c : Fin 64, (x2 (ix2 p (3 : Fin 4)) * x0 (ix2 p c) + x2 (ix2 p (1 : Fin 4)) * x1 (ix2 p c)) * x3 (ix3 (1 : Fin 2) c q) := by
  unfold out0_5
  rw [View.canon_unit_zero hz2, pay3_apply, pay10_apply, ld_whole, ld_whole]
  congr 1
  · refine Finset.sum_congr rfl fun c _ => ?_
    rw [ld_col0, ld_col2, ld_w0]
  · refine Finset.sum_congr rfl fun c _ => ?_
    rw [pay4_eq, pay5_eq, pay11_eq, pay12_eq, ld_col1, ld_col3, ld_w1]

end Cert.KerBody

end
-- ==== Proof.KerBlocks.lean ====
import proofs.«119710_j9560597201099_2_alg».proof.Proof.Gen.KernelIdeal.Frame
import proofs.«119710_j9560597201099_2_alg».proof.Proof.LibPlainDot
import proofs.«119710_j9560597201099_2_alg».proof.Proof.LibLayout
import proofs.«119710_j9560597201099_2_alg».proof.Proof.LibIndexOps
import proofs.«119710_j9560597201099_2_alg».proof.Proof.Spec
import proofs.«119710_j9560597201099_2_alg».proof.Proof.Args
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import proofs.«119710_j9560597201099_2_alg».proof.Proof.KerBody
set_option maxRecDepth 16384

noncomputable section

open Idealize.ShloMosaic Idealize.ShloMosaic.TcCoe Idealize.SL.Sem Idealize.ShloMosaic.ValueIdx

/-!
# From the grid's blocks to the two per-edge arrays

The region runs over 500 points; point `t` holds edges `3200·t … 3200·t + 3199`, reads their rows of the gathered
feature arrays and of the scale table and the whole weight array, and writes back rows `3200·t …` of the two result
arrays.  Every row of a result array is therefore some point's, and the array after the run is, row by row, the
body's function of the same row of the inputs: the per-edge contribution
`Σ_c (a₀ · xr − b₀ · xi) · w₀ + Σ_c (a₁ · xr − b₁ · xi) · w₁` (and the same with `b · xr + a · xi`).
-/

namespace Cert.KerBlocks

open Cert.KernelIdeal Cert.KernelIdeal.Gen

/-- The per-edge contribution, the combination a difference, as one function of the arrays the region reads: the
    gathered rows `g0`, `g1`, the scale table `sc` (columns `a₀ a₁ b₀ b₁`) and the weights `w`. -/
def contribSub (g0 g1 : S1600000x64.Idx → EReal) (sc : S1600000x4.Idx → EReal) (w : S2x64x64.Idx → EReal) :
    S1600000x64.Idx → EReal := fun i =>
  (∑ c : Fin 64, (sc (ix2 (i 0) (0 : Fin 4)) * g0 (ix2 (i 0) c) - sc (ix2 (i 0) (2 : Fin 4)) * g1 (ix2 (i 0) c)) * w (ix3 (0 : Fin 2) c (i 1)))
    + ∑ c : Fin 64, (sc (ix2 (i 0) (1 : Fin 4)) * g0 (ix2 (i 0) c) - sc (ix2 (i 0) (3 : Fin 4)) * g1 (ix2 (i 0) c)) * w (ix3 (1 : Fin 2) c (i 1))

/-- The per-edge contribution, the combination a sum. -/
def contribAdd (g0 g1 : S1600000x64.Idx → EReal) (sc : S1600000x4.Idx → EReal) (w : S2x64x64.Idx → EReal) :
    S1600000x64.Idx → EReal := fun i =>
  (∑ c : Fin 64, (sc (ix2 (i 0) (2 : Fin 4)) * g0 (ix2 (i 0) c) + sc (ix2 (i 0) (0 : Fin 4)) * g1 (ix2 (i 0) c)) * w (ix3 (0 : Fin 2) c (i 1)))
    + ∑ c : Fin 64, (sc (ix2 (i 0) (3 : Fin 4)) * g0 (ix2 (i 0) c) + sc (ix2 (i 0) (1 : Fin 4)) * g1 (ix2 (i 0) c)) * w (ix3 (1 : Fin 2) c (i 1))

/-- A block whose rows are rows of the arrays (row `p` of the block is row `i 0`), at entry `(p, q)` with `q` the
    column `i 1`, is the difference contribution at `i`. -/
theorem block_sub (g0 g1 : S1600000x64.Idx → EReal) (sc : S1600000x4.Idx → EReal) (w : S2x64x64.Idx → EReal)
    (x0 x1 : Vec Ideal S3200x64 .bf16) (x2 : Vec Ideal S3200x4 .f32) (x3 : Vec Ideal S2x64x64 .f32)
    (p : Fin 3200) (q : Fin 64) (i : S1600000x64.Idx)
    (h0 : ∀ ch : Fin 64, x0 (ix2 p ch) = g0 (ix2 (i 0) ch)) (h1 : ∀ ch : Fin 64, x1 (ix2 p ch) = g1 (ix2 (i 0) ch))
    (h2 : ∀ col : Fin 4, x2 (ix2 p col) = sc (ix2 (i 0) col)) (h3 : ∀ (k : Fin 2) (c o : Fin 64), x3 (ix3 k c o) = w (ix3 k c o))
    (hq : i 1 = q) :
    out0_4 x0 x1 x2 x3 (ix2 p q) = contribSub g0 g1 sc w i := by
  rw [Cert.KerBody.out4_apply]
  unfold contribSub
  rw [hq]
  simp only [h0, h1, h2, h3]

/-- The same for the sum contribution. -/
theorem block_add (g0 g1 : S1600000x64.Idx → EReal) (sc : S1600000x4.Idx → EReal) (w : S2x64x64.Idx → EReal)
    (x0 x1 : Vec Ideal S3200x64 .bf16) (x2 : Vec Ideal S3200x4 .f32) (x3 : Vec Ideal S2x64x64 .f32)
    (p : Fin 3200) (q : Fin 64) (i : S1600000x64.Idx)
    (h0 : ∀ ch : Fin 64, x0 (ix2 p ch) = g0 (ix2 (i 0) ch)) (h1 : ∀ ch : Fin 64, x1 (ix2 p ch) = g1 (ix2 (i 0) ch))
    (h2 : ∀ col : Fin 4, x2 (ix2 p col) = sc (ix2 (i 0) col)) (h3 : ∀ (k : Fin 2) (c o : Fin 64), x3 (ix3 k c o) = w (ix3 k c o))
    (hq : i 1 = q) :
    out0_5 x0 x1 x2 x3 (ix2 p q) = contribAdd g0 g1 sc w i := by
  rw [Cert.KerBody.out5_apply]
  unfold contribAdd
  rw [hq]
  simp only [h0, h1, h2, h3]

variable (m : (ℓ : Loc nD τ sig) → Buf (Elt Ideal) ℓ)

/-- The block index maps over the grid: the five row-blocked windows are at block `t` of the rows and block 0 of the
    columns, the weight window at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The windows' blocks at a point -/

/-- Row `p` of point `t`'s block of the gathered real rows is row `3200·t + p` of the array. -/
theorem iblk0_apply (c : Dev nD) (t : Fin cfg0.N) (p : Fin 3200) (ch : Fin 64) (k : S1600000x64.Idx)
    (hk0 : (k 0).val = 3200 * t.val + p.val) (hk1 : (k 1).val = ch.val) :
    (iblk m c 0 t : Vec Ideal S3200x64 .bf16) (ix2 p ch) = (V m c main_v8 : S1600000x64.Idx → EReal) k := by
  obtain ⟨e0, e1, -⟩ := idx_facts t
  unfold iblk
  rw [View.read_apply]
  show (V m c main_v8 : S1600000x64.Idx → EReal) _ = _
  congr 1
  funext a
  apply Fin.ext
  match a with
  | ⟨0, _⟩ => show win0_0.index t 0 * 3200 + 1 * p.val = (k 0).val; rw [e0, hk0]; omega
  | ⟨1, _⟩ => show win0_0.index t 1 * 64 + 1 * ch.val = (k 1).val; rw [e1, hk1]; omega

/-- The same for the gathered imaginary rows. -/
theorem iblk1_apply (c : Dev nD) (t : Fin cfg0.N) (p : Fin 3200) (ch : Fin 64) (k : S1600000x64.Idx)
    (hk0 : (k 0).val = 3200 * t.val + p.val) (hk1 : (k 1).val = ch.val) :
    (iblk m c 1 t : Vec Ideal S3200x64 .bf16) (ix2 p ch) = (V m c main_v15 : S1600000x64.Idx → EReal) k := by
  obtain ⟨-, -, e0, e1, -⟩ := idx_facts t
  unfold iblk
  rw [View.read_apply]
  show (V m c main_v15 : S1600000x64.Idx → EReal) _ = _
  congr 1
  funext a
  apply Fin.ext
  match a with
  | ⟨0, _⟩ => show win0_1.index t 0 * 3200 + 1 * p.val = (k 0).val; rw [e0, hk0]; omega
  | ⟨1, _⟩ => show win0_1.index t 1 * 64 + 1 * ch.val = (k 1).val; rw [e1, hk1]; omega

/-- Row `p` of point `t`'s block of the scale table is row `3200·t + p` of the table. -/
theorem iblk2_apply (c : Dev nD) (t : Fin cfg0.N) (p : Fin 3200) (col : Fin 4) (k : S1600000x4.Idx)
    (hk0 : (k 0).val = 3200 * t.val + p.val) (hk1 : (k 1).val = col.val) :
    (iblk m c 2 t : Vec Ideal S3200x4 .f32) (ix2 p col) = (V m c main_v18 : S1600000x4.Idx → EReal) k := by
  obtain ⟨-, -, -, -, e0, e1, -⟩ := idx_facts t
  unfold iblk
  rw [View.read_apply]
  show (V m c main_v18 : S1600000x4.Idx → EReal) _ = _
  congr 1
  funext a
  apply Fin.ext
  match a with
  | ⟨0, _⟩ => show win0_2.index t 0 * 3200 + 1 * p.val = (k 0).val; rw [e0, hk0]; omega
  | ⟨1, _⟩ => show win0_2.index t 1 * 4 + 1 * col.val = (k 1).val; rw [e1, hk1]; omega

/-- Every point's block of the weights is the whole weight array. -/
theorem iblk3_apply (c : Dev nD) (t : Fin cfg0.N) (k : Fin 2) (ci o : Fin 64) :
    (iblk m c 3 t : Vec Ideal S2x64x64 .f32) (ix3 k ci o) = (V m c main_arg4 : S2x64x64.Idx → EReal) (ix3 k ci o) := by
  obtain ⟨-, -, -, -, -, -, e0, e1, e2, -⟩ := idx_facts t
  unfold iblk
  rw [View.read_apply]
  show (V m c main_arg4 : S2x64x64.Idx → EReal) _ = _
  congr 1
  funext a
  apply Fin.ext
  match a with
  | ⟨0, _⟩ => show win0_3.index t 0 * 2 + 1 * k.val = k.val; rw [e0]; omega
  | ⟨1, _⟩ => show win0_3.index t 1 * 64 + 1 * ci.val = ci.val; rw [e1]; omega
  | ⟨2, _⟩ => show win0_3.index t 2 * 64 + 1 * o.val = o.val; rw [e2]; omega

/-! ## What a point writes back, and the arrays after the run -/

/-- Point `t` writes back block `t` of the difference contribution. -/
theorem flushed4_eq (c : Dev nD) (t : Fin cfg0.N) :
    (dats m 0 c).flushed 4 t = ((cfg0.win 4).blk t).view.read (Elt Ideal)
      (contribSub (V m c main_v8) (V m c main_v15) (V m c main_v18) (V m c main_arg4)) := by
  show (cfg0.win 4).cut (grid0.coords t) ((dats m 0 c).after 4 t) = _
  rw [after0_4]
  obtain ⟨-, -, -, -, -, -, -, -, -, e0, e1, -⟩ := idx_facts t
  funext j
  obtain ⟨p, q, rfl⟩ : ∃ (p : Fin 3200) (q : Fin 64), j = ix2 p q := ⟨j 0, j 1, eq_ix2 j⟩
  have r0 : ((((cfg0.win 4).blk t).view.emb (ix2 p q)) 0).val = 3200 * t.val + p.val := by
    show win0_4.index t 0 * 3200 + 1 * p.val = _; rw [e0]; omega
  have r1 : ((((cfg0.win 4).blk t).view.emb (ix2 p q)) 1).val = q.val := by
    show win0_4.index t 1 * 64 + 1 * q.val = _; rw [e1]; omega
  refine block_sub (V m c main_v8) (V m c main_v15) (V m c main_v18) (V m c main_arg4)
    (iblk m c 0 t) (iblk m c 1 t) (iblk m c 2 t) (iblk m c 3 t) p q (((cfg0.win 4).blk t).view.emb (ix2 p q)) ?_ ?_ ?_ ?_ ?_
  · intro ch; exact iblk0_apply m c t p ch _ r0 rfl
  · intro ch; exact iblk1_apply m c t p ch _ r0 rfl
  · intro col; exact iblk2_apply m c t p col _ r0 rfl
  · intro k ci o; exact iblk3_apply m c t k ci o
  · exact Fin.ext r1

/-- Point `t` writes back block `t` of the sum contribution. -/
theorem flushed5_eq (c : Dev nD) (t : Fin cfg0.N) :
    (dats m 0 c).flushed 5 t = ((cfg0.win 5).blk t).view.read (Elt Ideal)
      (contribAdd (V m c main_v8) (V m c main_v15) (V m c main_v18) (V m c main_arg4)) := by
  show (cfg0.win 5).cut (grid0.coords t) ((dats m 0 c).after 5 t) = _
  rw [after0_5]
  obtain ⟨-, -, -, -, -, -, -, -, -, -, -, e0, e1⟩ := idx_facts t
  funext j
  obtain ⟨p, q, rfl⟩ : ∃ (p : Fin 3200) (q : Fin 64), j = ix2 p q := ⟨j 0, j 1, eq_ix2 j⟩
  have r0 : ((((cfg0.win 5).blk t).view.emb (ix2 p q)) 0).val = 3200 * t.val + p.val := by
    show win0_5.index t 0 * 3200 + 1 * p.val = _; rw [e0]; omega
  have r1 : ((((cfg0.win 5).blk t).view.emb (ix2 p q)) 1).val = q.val := by
    show win0_5.index t 1 * 64 + 1 * q.val = _; rw [e1]; omega
  refine block_add (V m c main_v8) (V m c main_v15) (V m c main_v18) (V m c main_arg4)
    (iblk m c 0 t) (iblk m c 1 t) (iblk m c 2 t) (iblk m c 3 t) p q (((cfg0.win 5).blk t).view.emb (ix2 p q)) ?_ ?_ ?_ ?_ ?_
  · intro ch; exact iblk0_apply m c t p ch _ r0 rfl
  · intro ch; exact iblk1_apply m c t p ch _ r0 rfl
  · intro col; exact iblk2_apply m c t p col _ r0 rfl
  · intro k ci o; exact iblk3_apply m c t k ci o
  · exact Fin.ext r1

/-- Every row of the first result array is in the block of the point `row / 3200`. -/
theorem cover4 (i : S1600000x64.Idx) :
    ∃ t : Fin cfg0.N, (cfg0.win 4).flush t = true ∧ i ∈ ((cfg0.win 4).blk t).view.set := by
  have h0 : (i 0).val < 1600000 := (i 0).isLt
  have h1 : (i 1).val < 64 := (i 1).isLt
  have hN : cfg0.N = 500 := N_0
  obtain ⟨t, ht⟩ : ∃ t : Fin cfg0.N, t.val = (i 0).val / 3200 := ⟨⟨(i 0).val / 3200, by rw [hN]; omega⟩, rfl⟩
  obtain ⟨-, -, -, -, -, -, -, -, -, e0, e1, -⟩ := idx_facts t
  refine ⟨t, flush0_4 t, ?_⟩
  show i ∈ ((View.whole main_v19_0).slice (win0_4.rect t)).set
  rw [View.set_slice_whole, Rect.mem_set_unit]
  intro a
  match a with
  | ⟨0, _⟩ =>
    show win0_4.index t 0 * 3200 ≤ (i 0).val ∧ (i 0).val < win0_4.index t 0 * 3200 + 3200
    rw [e0, ht]; omega
  | ⟨1, _⟩ =>
    show win0_4.index t 1 * 64 ≤ (i 1).val ∧ (i 1).val < win0_4.index t 1 * 64 + 64
    rw [e1]; omega

/-- The same for the second result array. -/
theorem cover5 (i : S1600000x64.Idx) :
    ∃ t : Fin cfg0.N, (cfg0.win 5).flush t = true ∧ i ∈ ((cfg0.win 5).blk t).view.set := by
  have h0 : (i 0).val < 1600000 := (i 0).isLt
  have h1 : (i 1).val < 64 := (i 1).isLt
  have hN : cfg0.N = 500 := N_0
  obtain ⟨t, ht⟩ : ∃ t : Fin cfg0.N, t.val = (i 0).val / 3200 := ⟨⟨(i 0).val / 3200, by rw [hN]; omega⟩, rfl⟩
  obtain ⟨-, -, -, -, -, -, -, -, -, -, -, e0, e1⟩ := idx_facts t
  refine ⟨t, flush0_5 t, ?_⟩
  show i ∈ ((View.whole main_v19_1).slice (win0_5.rect t)).set
  rw [View.set_slice_whole, Rect.mem_set_unit]
  intro a
  match a with
  | ⟨0, _⟩ =>
    show win0_5.index t 0 * 3200 ≤ (i 0).val ∧ (i 0).val < win0_5.index t 0 * 3200 + 3200
    rw [e0, ht]; omega
  | ⟨1, _⟩ =>
    show win0_5.index t 1 * 64 ≤ (i 1).val ∧ (i 1).val < win0_5.index t 1 * 64 + 64
    rw [e1]; omega

/-- THE FIRST RESULT ARRAY after the run: the difference contribution of the arrays the region found. -/
theorem final4 (c : Dev nD) :
    (dats m 0 c).arrAt 4 cfg0.N = contribSub (V m c main_v8) (V m c main_v15) (V m c main_v18) (V m c main_arg4) :=
  (dats m 0 c).arrAt_eq_of_cover 4 _ (fun t _ => flushed4_eq m c t) cover4

/-- THE SECOND RESULT ARRAY after the run: the sum contribution. -/
theorem final5 (c : Dev nD) :
    (dats m 0 c).arrAt 5 cfg0.N = contribAdd (V m c main_v8) (V m c main_v15) (V m c main_v18) (V m c main_arg4) :=
  (dats m 0 c).arrAt_eq_of_cover 5 _ (fun t _ => flushed5_eq m c t) cover5

end Cert.KerBlocks

end
-- ==== Proof.KerTail.lean ====
import proofs.«119710_j9560597201099_2_alg».proof.Proof.Gen.KernelIdeal.Frame
import proofs.«119710_j9560597201099_2_alg».proof.Proof.LibPlainDot
import proofs.«119710_j9560597201099_2_alg».proof.Proof.LibLayout
import proofs.«119710_j9560597201099_2_alg».proof.Proof.LibIndexOps
import proofs.«119710_j9560597201099_2_alg».proof.Proof.Spec
import proofs.«119710_j9560597201099_2_alg».proof.Proof.Args
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import proofs.«119710_j9560597201099_2_alg».proof.Proof.KerBlocks
set_option maxRecDepth 16384

noncomputable section

open Idealize.ShloMosaic Idealize.ShloMosaic.TcCoe Idealize.SL.Sem Idealize.ShloMosaic.ValueIdx

/-!
# After the region: rows added up by target, plus the bias

The host lines after the region scatter-add the per-edge rows into a zero array at the edges' target rows and add the
bias row to every node's row.  Read at node `n`, channel `o`: the sum of the per-edge values at `(e, o)` over the
edges that land on `n`, plus the bias at `o` — the zero the accumulation starts from is absorbed.
-/

namespace Cert.KerTail

open Cert.KernelIdeal Cert.KernelIdeal.Gen

/-- The lines after the region as one function of the row array, the per-edge array and the bias. -/
def tailOf (x6 : S1600000.Idx → BitVec 32) (contrib : S1600000x64.Idx → EReal) (x5 : S1x64.Idx → EReal) :
    S100000x64.Idx → EReal :=
  addf (F := Ideal) (φ := .f32)
    (Host.scatterAdd (F := Ideal) (φ := .f32) scatter_S100000x64_S1600000x1_S1600000x64_1_0_0_1
      (broadcastInDim S100000x64 ![] bcast_S_S100000x64 (constant (F := Ideal) S_ .f32 0#32))
      (broadcastInDim S1600000x1 ![0] bcast_S1600000_S1600000x1_0 x6) contrib)
    (broadcastInDim S100000x64 ![0, 1] bcast_S1x64_S100000x64_0_1 x5)

/-- The row array as a column: its word at `e`. -/
theorem rows_apply (x6 : S1600000.Idx → BitVec 32) (e : Fin 1600000) (u : Fin 1) :
    broadcastInDim S1600000x1 ![0] bcast_S1600000_S1600000x1_0 x6 (ix2 e u) = x6 (ix1 e) :=
  broadcastInDim_apply _ bcast_S1600000_S1600000x1_0 x6 (ix2 e u) (ix1 e) (fun a => match a with
    | ⟨0, _⟩ => by show e.val = if (1600000 : Nat) = 1 then 0 else e.val; rw [if_neg (by decide)])

/-- The bias row under every node. -/
theorem bias_apply (x5 : S1x64.Idx → EReal) (n : Fin 100000) (o : Fin 64) :
    broadcastInDim S100000x64 ![0, 1] bcast_S1x64_S100000x64_0_1 x5 (ix2 n o) = x5 (ix2 (0 : Fin 1) o) :=
  broadcastInDim_apply _ bcast_S1x64_S100000x64_0_1 x5 (ix2 n o) (ix2 (0 : Fin 1) o) (fun a => match a with
    | ⟨0, _⟩ => by show (0 : Nat) = if (1 : Nat) = 1 then 0 else n.val; rw [if_pos rfl]
    | ⟨1, _⟩ => by show o.val = if (64 : Nat) = 1 then 0 else o.val; rw [if_neg (by decide)])

/-- The zero array the accumulation starts from. -/
theorem zeros_apply (i : S100000x64.Idx) :
    broadcastInDim S100000x64 ![] bcast_S_S100000x64 (constant (F := Ideal) S_ .f32 0#32) i = (0 : EReal) := by
  rw [broadcastInDim_apply _ bcast_S_S100000x64 _ i ix0 (fun a => a.elim0), constant_apply]
  exact Ideal.ofBits_zero_f32

/-- The printed scatter's dimension numbers are those of a row scatter-add. -/
theorem record_eq : scatter_S100000x64_S1600000x1_S1600000x64_1_0_0_1
    = Cert.LibIndexOps.rowScatterDims 100000 1600000 64 scatter_S100000x64_S1600000x1_S1600000x64_1_0_0_1_wf := rfl

/-- A row scatter-add at `(n, o)`, for any record carrying a row scatter-add's dimension numbers. -/
theorem scatter_apply (d : ScatterDims S100000x64 S1600000x1 S1600000x64)
    (wf : ScatterDims.WF ⟨2, ![100000, 64]⟩ ⟨2, ![1600000, 1]⟩ ⟨2, ![1600000, 64]⟩ [1] [0] [0] 1)
    (hd : d = Cert.LibIndexOps.rowScatterDims 100000 1600000 64 wf)
    (x : S100000x64.Idx → EReal) (idx : S1600000x1.Idx → BitVec 32) (upd : S1600000x64.Idx → EReal) (n : Fin 100000) (o : Fin 64) :
    Host.scatterAdd (F := Ideal) (φ := .f32) d x idx upd (ix2 n o)
      = x (ix2 n o) + ∑ e ∈ Finset.univ.filter (fun e : Fin 1600000 => (Cert.LibIndexOps.pos idx e).toInt = (n.val : Int)), upd (ix2 e o) := by
  subst hd
  exact Cert.LibIndexOps.rowScatterAdd_apply wf x idx upd n o

/-- The edges whose row word is `n` are the edges that land on `n`. -/
theorem landing_eq (x6 : S1600000.Idx → BitVec 32) (n : Fin 100000) :
    Finset.univ.filter (fun e : Fin 1600000 =>
        (Cert.LibIndexOps.pos (broadcastInDim S1600000x1 ![0] bcast_S1600000_S1600000x1_0 x6) e).toInt = (n.val : Int))
      = Cert.Spec.landing (Cert.Args.row x6) n := by
  unfold Cert.Spec.landing Cert.Args.row Cert.LibIndexOps.pos
  refine Finset.filter_congr fun e _ => ?_
  rw [rows_apply]

/-- The bias row under node `n` at channel `o` is the bias at `o`. -/
theorem bias_row (x5 : S1x64.Idx → EReal) (n : Fin 100000) (o : Fin 64) :
    broadcastInDim S100000x64 ![0, 1] bcast_S1x64_S100000x64_0_1 x5 (ix2 n o) = Cert.Args.biasRow x5 o :=
  bias_apply x5 n o

/-- A row scatter-add into an array that is zero at `(n, o)`, plus another array: at `(n, o)` the sum of the update
    rows' values over the rows whose position is `n`, plus the other array's value. -/
theorem add_scatter_apply (X : S100000x64.Idx → EReal) (I : S1600000x1.Idx → BitVec 32) (U : S1600000x64.Idx → EReal)
    (B : S100000x64.Idx → EReal) (n : Fin 100000) (o : Fin 64) (hX : X (ix2 n o) = 0) :
    addf (F := Ideal) (φ := .f32)
        (Host.scatterAdd (F := Ideal) (φ := .f32) scatter_S100000x64_S1600000x1_S1600000x64_1_0_0_1 X I U) B (ix2 n o)
      = (∑ e ∈ Finset.univ.filter (fun e : Fin 1600000 => (Cert.LibIndexOps.pos I e).toInt = (n.val : Int)), U (ix2 e o))
        + B (ix2 n o) := by
  rw [addf_apply, scatter_apply _ _ record_eq, hX, zero_add]

/-- THE TAIL AT `(n, o)`. -/
theorem tailOf_apply (x6 : S1600000.Idx → BitVec 32) (contrib : S1600000x64.Idx → EReal) (x5 : S1x64.Idx → EReal)
    (n : Fin 100000) (o : Fin 64) :
    tailOf x6 contrib x5 (ix2 n o)
      = (∑ e ∈ Cert.Spec.landing (Cert.Args.row x6) n, contrib (ix2 e o)) + Cert.Args.biasRow x5 o := by
  unfold tailOf
  rw [add_scatter_apply _ _ _ _ n o (zeros_apply _), landing_eq, bias_row]

end Cert.KerTail

end
-- ==== Proof.KerPrefix.lean ====
/-
  The arrays the kernel's region finds, read at an index.

  Before the region the program prepares three arrays from its arguments.  The two gathered feature arrays hold, in row
  `e`, the feature row of edge `e`'s source node: the column word of `e` is raised by the number of nodes when it is
  negative, read as a signed integer and clamped to a node's number, and the row of that number is taken from the
  feature array (whose change of float format is the identity on extended reals).  The coefficient array has four
  columns per edge: the two coefficient arrays, each `[2, edges]`, are transposed to `[edges, 2]` and laid side by
  side, so that columns 0 and 1 are the first array's terms 0 and 1 and columns 2 and 3 the second array's.

  First each of these is proved for arbitrary operand arrays (the gather through its position column, the transposed
  pair through the concatenation); then the arrays the region finds are identified with those terms of the program's
  arguments.
-/
import proofs.«119710_j9560597201099_2_alg».proof.Proof.Gen.KernelIdeal.Frame
import proofs.«119710_j9560597201099_2_alg».proof.Proof.LibIndexOps
import proofs.«119710_j9560597201099_2_alg».proof.Proof.Args
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KerPrefix

open Idealize.ShloMosaic Idealize.ShloMosaic.TcCoe Idealize.SL.Sem Idealize.ShloMosaic.ValueIdx
open Idealize.ShloMosaic.StableHlo
open Cert.KernelIdeal Cert.KernelIdeal.Gen

/-! ## The operations on arbitrary operands -/

/-- The position word of row `e` of a column `[edges, 1]` made from a vector `[edges]` is the vector's word at `e`. -/
theorem pos_column (hb : S1600000.BroadcastsInDim S1600000x1 (![0] : Fin 1 → Fin S1600000x1.rank))
    (y : IVec S1600000 32) (e : Fin 1600000) :
    Cert.LibIndexOps.pos (broadcastInDim S1600000x1 ![0] hb y) e = y (ix1 e) :=
  broadcastInDim_apply _ hb y _ (ix1 e) (fun a => match a with
    | ⟨0, _⟩ => by show e.val = if (1600000 : Nat) = 1 then 0 else e.val; rw [if_neg (by decide)])

/-- Comparing with zero, adding the number of nodes and selecting, at edge `e`, is the raised column word of `e`. -/
theorem wrapped_apply (hb : S_.BroadcastsInDim S1600000 (![] : Fin 0 → Fin S1600000.rank))
    (x7 : IVec S1600000 32) (e : Fin 1600000) :
    select (cmpi .slt x7 (broadcastInDim S1600000 ![] hb (constantI S_ 32 0#32)))
        (addi x7 (broadcastInDim S1600000 ![] hb (constantI S_ 32 100000#32))) x7 (ix1 e)
      = Cert.Args.wrapped x7 e := rfl

/-- The gathered array at `(e, ch)` is the feature array at the source node of `e`, channel `ch`. -/
theorem gathered_apply (G : GatherDims S100000x64 S1600000x1 S1600000x64)
    (wf : GatherDims.WF S100000x64 S1600000x1 S1600000x64 [1] [0] [] [0] [] 1 ![1, 64])
    (hG : G = Cert.LibIndexOps.rowGatherDims 100000 1600000 64 wf)
    (hlt : FTy.bits .bf16 < FTy.bits .f32)
    (hb0 : S_.BroadcastsInDim S1600000 (![] : Fin 0 → Fin S1600000.rank))
    (hb1 : S1600000.BroadcastsInDim S1600000x1 (![0] : Fin 1 → Fin S1600000x1.rank))
    (x : FVec Ideal S100000x64 .f32) (x7 : IVec S1600000 32) (e : Fin 1600000) (ch : Fin 64) :
    Host.gather G (truncf .bf16 x hlt : FVec Ideal S100000x64 .bf16)
        (broadcastInDim S1600000x1 ![0] hb1
          (select (cmpi .slt x7 (broadcastInDim S1600000 ![] hb0 (constantI S_ 32 0#32)))
            (addi x7 (broadcastInDim S1600000 ![] hb0 (constantI S_ 32 100000#32))) x7))
        (ix2 e ch)
      = Cert.Args.feat x (Cert.Args.src x7 e) ch := by
  subst hG
  rw [Cert.LibIndexOps.rowGather_apply (by norm_num : 0 < 100000) wf, pos_column, wrapped_apply]
  rfl

/-- Column `q` of the side-by-side array, `q` below 2, is term `q` of the first coefficient array. -/
theorem coefs_left (hT : S2x1600000.Transposes [1, 0] S1600000x2)
    (hC : Shape.Concatenates [S1600000x2, S1600000x2] S1600000x4 1)
    (x2 x3 : FVec Ideal S2x1600000 .f32) (e : Fin 1600000) (k : Fin 2) (q : Fin 4) (hq : q.val = k.val) :
    concatenate S1600000x4 1 [⟨S1600000x2, transpose S1600000x2 [1, 0] x2 hT⟩,
        ⟨S1600000x2, transpose S1600000x2 [1, 0] x3 hT⟩] hC (ix2 e q)
      = Cert.Args.coef x2 k e := by
  rw [concatenate_pair_apply_left (1 : Fin S1600000x4.rank) _ _ hC (ix2 e q) rfl (ix2 e k) (fun b => match b with
    | ⟨0, _⟩ => rfl
    | ⟨1, _⟩ => hq.symm)]
  exact transpose_apply [1, 0] x2 hT (ix2 e k) (ix2 k e) (fun b => match b with
    | ⟨0, _⟩ => rfl
    | ⟨1, _⟩ => rfl)

/-- Column `q` of the side-by-side array, `q` from 2 on, is term `q - 2` of the second coefficient array. -/
theorem coefs_right (hT : S2x1600000.Transposes [1, 0] S1600000x2)
    (hC : Shape.Concatenates [S1600000x2, S1600000x2] S1600000x4 1)
    (x2 x3 : FVec Ideal S2x1600000 .f32) (e : Fin 1600000) (k : Fin 2) (q : Fin 4) (hq : q.val = k.val + 2) :
    concatenate S1600000x4 1 [⟨S1600000x2, transpose S1600000x2 [1, 0] x2 hT⟩,
        ⟨S1600000x2, transpose S1600000x2 [1, 0] x3 hT⟩] hC (ix2 e q)
      = Cert.Args.coef x3 k e := by
  rw [concatenate_pair_apply_right (1 : Fin S1600000x4.rank) _ _ hC (ix2 e q) rfl rfl (ix2 e k) (fun b => match b with
    | ⟨0, _⟩ => fun _ => rfl
    | ⟨1, _⟩ => fun h => absurd rfl h) hq.symm]
  exact transpose_apply [1, 0] x3 hT (ix2 e k) (ix2 k e) (fun b => match b with
    | ⟨0, _⟩ => rfl
    | ⟨1, _⟩ => rfl)

/-! ## The arrays the region finds -/

/-- The first gathered array at `(e, ch)`: the first feature array at the source node of `e`. -/
theorem v8_apply (m : (ℓ : Loc Cert.KernelIdeal.nD Cert.KernelIdeal.τ Cert.KernelIdeal.sig) → Buf (Elt Ideal) ℓ)
    (c : Dev Cert.KernelIdeal.nD) (e : Fin 1600000) (ch : Fin 64) :
    (Cert.KernelIdeal.Gen.V m c Cert.KernelIdeal.main_v8 : Cert.KernelIdeal.S1600000x64.Idx → EReal) (ix2 e ch)
      = Cert.Args.feat (m ((c.tc : Thread Cert.KernelIdeal.nD Cert.KernelIdeal.τ).loc Cert.KernelIdeal.main_arg0))
          (Cert.Args.src (m ((c.tc : Thread Cert.KernelIdeal.nD Cert.KernelIdeal.τ).loc Cert.KernelIdeal.main_arg7)) e) ch := by
  show StableHlo.after hostOps0 (fun b => m (c, b)) (Proc.devRef .tc main_v8) (ix2 e ch) = _
  after_results
  exact gathered_apply _ _ rfl _ _ _ _ _ e ch

/-- The second gathered array at `(e, ch)`: the second feature array at the source node of `e`. -/
theorem v15_apply (m : (ℓ : Loc Cert.KernelIdeal.nD Cert.KernelIdeal.τ Cert.KernelIdeal.sig) → Buf (Elt Ideal) ℓ)
    (c : Dev Cert.KernelIdeal.nD) (e : Fin 1600000) (ch : Fin 64) :
    (Cert.KernelIdeal.Gen.V m c Cert.KernelIdeal.main_v15 : Cert.KernelIdeal.S1600000x64.Idx → EReal) (ix2 e ch)
      = Cert.Args.feat (m ((c.tc : Thread Cert.KernelIdeal.nD Cert.KernelIdeal.τ).loc Cert.KernelIdeal.main_arg1))
          (Cert.Args.src (m ((c.tc : Thread Cert.KernelIdeal.nD Cert.KernelIdeal.τ).loc Cert.KernelIdeal.main_arg7)) e) ch := by
  show StableHlo.after hostOps0 (fun b => m (c, b)) (Proc.devRef .tc main_v15) (ix2 e ch) = _
  after_results
  exact gathered_apply _ _ rfl _ _ _ _ _ e ch

/-- Column `q` of the coefficient array the region finds, `q` below 2: term `q` of the first coefficient array. -/
theorem v18_left (m : (ℓ : Loc Cert.KernelIdeal.nD Cert.KernelIdeal.τ Cert.KernelIdeal.sig) → Buf (Elt Ideal) ℓ)
    (c : Dev Cert.KernelIdeal.nD) (e : Fin 1600000) (k : Fin 2) (q : Fin 4) (hq : q.val = k.val) :
    (Cert.KernelIdeal.Gen.V m c Cert.KernelIdeal.main_v18 : Cert.KernelIdeal.S1600000x4.Idx → EReal) (ix2 e q)
      = Cert.Args.coef (m ((c.tc : Thread Cert.KernelIdeal.nD Cert.KernelIdeal.τ).loc Cert.KernelIdeal.main_arg2)) k e := by
  show StableHlo.after hostOps0 (fun b => m (c, b)) (Proc.devRef .tc main_v18) (ix2 e q) = _
  after_results
  exact coefs_left _ _ _ _ e k q hq

/-- Column `q` of the coefficient array the region finds, `q` from 2 on: term `q - 2` of the second coefficient array. -/
theorem v18_right (m : (ℓ : Loc Cert.KernelIdeal.nD Cert.KernelIdeal.τ Cert.KernelIdeal.sig) → Buf (Elt Ideal) ℓ)
    (c : Dev Cert.KernelIdeal.nD) (e : Fin 1600000) (k : Fin 2) (q : Fin 4) (hq : q.val = k.val + 2) :
    (Cert.KernelIdeal.Gen.V m c Cert.KernelIdeal.main_v18 : Cert.KernelIdeal.S1600000x4.Idx → EReal) (ix2 e q)
      = Cert.Args.coef (m ((c.tc : Thread Cert.KernelIdeal.nD Cert.KernelIdeal.τ).loc Cert.KernelIdeal.main_arg3)) k e := by
  show StableHlo.after hostOps0 (fun b => m (c, b)) (Proc.devRef .tc main_v18) (ix2 e q) = _
  after_results
  exact coefs_right _ _ _ _ e k q hq

/-- Column 0: the first coefficient array's term 0. -/
theorem v18_col0 (m : (ℓ : Loc Cert.KernelIdeal.nD Cert.KernelIdeal.τ Cert.KernelIdeal.sig) → Buf (Elt Ideal) ℓ)
    (c : Dev Cert.KernelIdeal.nD) (e : Fin 1600000) :
    (Cert.KernelIdeal.Gen.V m c Cert.KernelIdeal.main_v18 : Cert.KernelIdeal.S1600000x4.Idx → EReal) (ix2 e (0 : Fin 4))
      = Cert.Args.coef (m ((c.tc : Thread Cert.KernelIdeal.nD Cert.KernelIdeal.τ).loc Cert.KernelIdeal.main_arg2)) 0 e :=
  v18_left m c e 0 0 rfl

/-- Column 1: the first coefficient array's term 1. -/
theorem v18_col1 (m : (ℓ : Loc Cert.KernelIdeal.nD Cert.KernelIdeal.τ Cert.KernelIdeal.sig) → Buf (Elt Ideal) ℓ)
    (c : Dev Cert.KernelIdeal.nD) (e : Fin 1600000) :
    (Cert.KernelIdeal.Gen.V m c Cert.KernelIdeal.main_v18 : Cert.KernelIdeal.S1600000x4.Idx → EReal) (ix2 e (1 : Fin 4))
      = Cert.Args.coef (m ((c.tc : Thread Cert.KernelIdeal.nD Cert.KernelIdeal.τ).loc Cert.KernelIdeal.main_arg2)) 1 e :=
  v18_left m c e 1 1 rfl

/-- Column 2: the second coefficient array's term 0. -/
theorem v18_col2 (m : (ℓ : Loc Cert.KernelIdeal.nD Cert.KernelIdeal.τ Cert.KernelIdeal.sig) → Buf (Elt Ideal) ℓ)
    (c : Dev Cert.KernelIdeal.nD) (e : Fin 1600000) :
    (Cert.KernelIdeal.Gen.V m c Cert.KernelIdeal.main_v18 : Cert.KernelIdeal.S1600000x4.Idx → EReal) (ix2 e (2 : Fin 4))
      = Cert.Args.coef (m ((c.tc : Thread Cert.KernelIdeal.nD Cert.KernelIdeal.τ).loc Cert.KernelIdeal.main_arg3)) 0 e :=
  v18_right m c e 0 2 rfl

/-- Column 3: the second coefficient array's term 1. -/
theorem v18_col3 (m : (ℓ : Loc Cert.KernelIdeal.nD Cert.KernelIdeal.τ Cert.KernelIdeal.sig) → Buf (Elt Ideal) ℓ)
    (c : Dev Cert.KernelIdeal.nD) (e : Fin 1600000) :
    (Cert.KernelIdeal.Gen.V m c Cert.KernelIdeal.main_v18 : Cert.KernelIdeal.S1600000x4.Idx → EReal) (ix2 e (3 : Fin 4))
      = Cert.Args.coef (m ((c.tc : Thread Cert.KernelIdeal.nD Cert.KernelIdeal.τ).loc Cert.KernelIdeal.main_arg3)) 1 e :=
  v18_right m c e 1 3 rfl

end Cert.KerPrefix

end
-- ==== Proof.KerValue.lean ====
import proofs.«119710_j9560597201099_2_alg».proof.Proof.Gen.KernelIdeal.Frame
import proofs.«119710_j9560597201099_2_alg».proof.Proof.LibPlainDot
import proofs.«119710_j9560597201099_2_alg».proof.Proof.LibLayout
import proofs.«119710_j9560597201099_2_alg».proof.Proof.LibIndexOps
import proofs.«119710_j9560597201099_2_alg».proof.Proof.Spec
import proofs.«119710_j9560597201099_2_alg».proof.Proof.Args
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import proofs.«119710_j9560597201099_2_alg».proof.Proof.KerBlocks
import proofs.«119710_j9560597201099_2_alg».proof.Proof.KerTail
import proofs.«119710_j9560597201099_2_alg».proof.Proof.KerPrefix
set_option maxRecDepth 16384

noncomputable section

open Idealize.ShloMosaic Idealize.ShloMosaic.TcCoe Idealize.SL.Sem Idealize.ShloMosaic.ValueIdx

/-!
# The kernel's two results are the edge-first arrangement

After the region the two per-edge arrays hold each edge's contribution (a function of the gathered rows, the scale
table and the weights); the host lines before the region make the gathered rows the source nodes' feature rows and
the scale table the coefficient arrays side by side; the host lines after it add the contributions up by target row
and add the bias.  Composed: at node `n`, channel `o` the first result is the edge-first arrangement with the
difference combination of `(a, b) = (Lr, Li)`, the second the one with the sum combination of `(a, b) = (Li, Lr)`.
-/

namespace Cert.KerValue

open Cert.KernelIdeal Cert.KernelIdeal.Gen

/-- An edge's difference contribution when the arrays the region reads are the source rows, the coefficients and
    the weights. -/
theorem contribSub_of (g0 g1 : S1600000x64.Idx → EReal) (sc : S1600000x4.Idx → EReal) (w : S2x64x64.Idx → EReal)
    (a b : Fin 2 → Fin 1600000 → EReal) (xr xi : Fin 100000 → Fin 64 → EReal) (wt : Fin 2 → Fin 64 → Fin 64 → EReal)
    (src : Fin 1600000 → Fin 100000) (e : Fin 1600000) (o : Fin 64)
    (h0 : ∀ ch : Fin 64, g0 (ix2 e ch) = xr (src e) ch) (h1 : ∀ ch : Fin 64, g1 (ix2 e ch) = xi (src e) ch)
    (hc0 : sc (ix2 e (0 : Fin 4)) = a 0 e) (hc1 : sc (ix2 e (1 : Fin 4)) = a 1 e)
    (hc2 : sc (ix2 e (2 : Fin 4)) = b 0 e) (hc3 : sc (ix2 e (3 : Fin 4)) = b 1 e)
    (hw : ∀ (k : Fin 2) (c o : Fin 64), w (ix3 k c o) = wt k c o) :
    Cert.KerBlocks.contribSub g0 g1 sc w (ix2 e o)
      = (∑ c : Fin 64, (a 0 e * xr (src e) c - b 0 e * xi (src e) c) * wt 0 c o)
        + ∑ c : Fin 64, (a 1 e * xr (src e) c - b 1 e * xi (src e) c) * wt 1 c o := by
  show (∑ c : Fin 64, (sc (ix2 e (0 : Fin 4)) * g0 (ix2 e c) - sc (ix2 e (2 : Fin 4)) * g1 (ix2 e c)) * w (ix3 (0 : Fin 2) c o))
      + ∑ c : Fin 64, (sc (ix2 e (1 : Fin 4)) * g0 (ix2 e c) - sc (ix2 e (3 : Fin 4)) * g1 (ix2 e c)) * w (ix3 (1 : Fin 2) c o) = _
  simp only [h0, h1, hc0, hc1, hc2, hc3, hw]

/-- An edge's sum contribution, likewise (the coefficient columns in the other roles). -/
theorem contribAdd_of (g0 g1 : S1600000x64.Idx → EReal) (sc : S1600000x4.Idx → EReal) (w : S2x64x64.Idx → EReal)
    (a b : Fin 2 → Fin 1600000 → EReal) (xr xi : Fin 100000 → Fin 64 → EReal) (wt : Fin 2 → Fin 64 → Fin 64 → EReal)
    (src : Fin 1600000 → Fin 100000) (e : Fin 1600000) (o : Fin 64)
    (h0 : ∀ ch : Fin 64, g0 (ix2 e ch) = xr (src e) ch) (h1 : ∀ ch : Fin 64, g1 (ix2 e ch) = xi (src e) ch)
    (hc0 : sc (ix2 e (0 : Fin 4)) = b 0 e) (hc1 : sc (ix2 e (1 : Fin 4)) = b 1 e)
    (hc2 : sc (ix2 e (2 : Fin 4)) = a 0 e) (hc3 : sc (ix2 e (3 : Fin 4)) = a 1 e)
    (hw : ∀ (k : Fin 2) (c o : Fin 64), w (ix3 k c o) = wt k c o) :
    Cert.KerBlocks.contribAdd g0 g1 sc w (ix2 e o)
      = (∑ c : Fin 64, (a 0 e * xr (src e) c + b 0 e * xi (src e) c) * wt 0 c o)
        + ∑ c : Fin 64, (a 1 e * xr (src e) c + b 1 e * xi (src e) c) * wt 1 c o := by
  show (∑ c : Fin 64, (sc (ix2 e (2 : Fin 4)) * g0 (ix2 e c) + sc (ix2 e (0 : Fin 4)) * g1 (ix2 e c)) * w (ix3 (0 : Fin 2) c o))
      + ∑ c : Fin 64, (sc (ix2 e (3 : Fin 4)) * g0 (ix2 e c) + sc (ix2 e (1 : Fin 4)) * g1 (ix2 e c)) * w (ix3 (1 : Fin 2) c o) = _
  simp only [h0, h1, hc0, hc1, hc2, hc3, hw]

/-- Contributions added up by target plus the bias, when each contribution is the edge's term: the edge-first
    arrangement (difference). -/
theorem edgeFirstSub_of (row : Fin 1600000 → ℤ) (src : Fin 1600000 → Fin 100000) (a b : Fin 2 → Fin 1600000 → EReal)
    (xr xi : Fin 100000 → Fin 64 → EReal) (wt : Fin 2 → Fin 64 → Fin 64 → EReal) (bias : Fin 64 → EReal)
    (contrib : S1600000x64.Idx → EReal) (n : Fin 100000) (o : Fin 64)
    (h : ∀ e : Fin 1600000, contrib (ix2 e o)
      = (∑ c : Fin 64, (a 0 e * xr (src e) c - b 0 e * xi (src e) c) * wt 0 c o)
        + ∑ c : Fin 64, (a 1 e * xr (src e) c - b 1 e * xi (src e) c) * wt 1 c o) :
    (∑ e ∈ Cert.Spec.landing row n, contrib (ix2 e o)) + bias o = Cert.Spec.edgeFirstSub row src a b xr xi wt bias n o := by
  unfold Cert.Spec.edgeFirstSub
  rw [Finset.sum_congr rfl fun e _ => h e]

/-- The same for the sum combination. -/
theorem edgeFirstAdd_of (row : Fin 1600000 → ℤ) (src : Fin 1600000 → Fin 100000) (a b : Fin 2 → Fin 1600000 → EReal)
    (xr xi : Fin 100000 → Fin 64 → EReal) (wt : Fin 2 → Fin 64 → Fin 64 → EReal) (bias : Fin 64 → EReal)
    (contrib : S1600000x64.Idx → EReal) (n : Fin 100000) (o : Fin 64)
    (h : ∀ e : Fin 1600000, contrib (ix2 e o)
      = (∑ c : Fin 64, (a 0 e * xr (src e) c + b 0 e * xi (src e) c) * wt 0 c o)
        + ∑ c : Fin 64, (a 1 e * xr (src e) c + b 1 e * xi (src e) c) * wt 1 c o) :
    (∑ e ∈ Cert.Spec.landing row n, contrib (ix2 e o)) + bias o = Cert.Spec.edgeFirstAdd row src a b xr xi wt bias n o := by
  unfold Cert.Spec.edgeFirstAdd
  rw [Finset.sum_congr rfl fun e _ => h e]

/-! ## The two results after the host lines that follow the region -/

variable (m : (ℓ : Loc nD τ sig) → Buf (Elt Ideal) ℓ) (ρ : Dev nD → PrngReg)

/-- The first result buffer after the run: the tail of the row array, the first per-edge array and the bias. -/
theorem tail24 (c : Dev nD) :
    Pipeline.afterTail₀ cfgs (dats m) 0 (V0 m) [hostOps1] c main_v24
      = Cert.KerTail.tailOf (V m c main_arg6) ((dats m 0 c).arrAt 4 cfg0.N) (V m c main_arg5) := by
  have h4 : Pipeline.withArrays (cfgs 0).spec c (V0 m c) (fun w => (dats m 0 c).arrAt w (cfgs 0).N) (Proc.devRef .tc main_v19_0)
      = (dats m 0 c).arrAt 4 cfg0.N := Pipeline.withArrays_arr spec0 launch0.win.arr_inj c _ _ 4
  have h6 : Pipeline.withArrays (cfgs 0).spec c (V0 m c) (fun w => (dats m 0 c).arrAt w (cfgs 0).N) (Proc.devRef .tc main_arg6)
      = V m c main_arg6 :=
    Pipeline.withArrays_of_ne _ c (V0 m c) _ main_arg6 (by exact (by decide : ∀ w, Pipeline.arrRef spec0 w ≠ main_arg6))
  have h5 : Pipeline.withArrays (cfgs 0).spec c (V0 m c) (fun w => (dats m 0 c).arrAt w (cfgs 0).N) (Proc.devRef .tc main_arg5)
      = V m c main_arg5 :=
    Pipeline.withArrays_of_ne _ c (V0 m c) _ main_arg5 (by exact (by decide : ∀ w, Pipeline.arrRef spec0 w ≠ main_arg5))
  unfold Pipeline.afterTail₀
  show StableHlo.after hostOps1 _ (Proc.devRef .tc main_v24) = _
  after_results
  rw [h4, h5, h6]
  unfold Cert.KerTail.tailOf
  rfl

/-- The second result buffer after the run. -/
theorem tail29 (c : Dev nD) :
    Pipeline.afterTail₀ cfgs (dats m) 0 (V0 m) [hostOps1] c main_v29
      = Cert.KerTail.tailOf (V m c main_arg6) ((dats m 0 c).arrAt 5 cfg0.N) (V m c main_arg5) := by
  have h4 : Pipeline.withArrays (cfgs 0).spec c (V0 m c) (fun w => (dats m 0 c).arrAt w (cfgs 0).N) (Proc.devRef .tc main_v19_1)
      = (dats m 0 c).arrAt 5 cfg0.N := Pipeline.withArrays_arr spec0 launch0.win.arr_inj c _ _ 5
  have h6 : Pipeline.withArrays (cfgs 0).spec c (V0 m c) (fun w => (dats m 0 c).arrAt w (cfgs 0).N) (Proc.devRef .tc main_arg6)
      = V m c main_arg6 :=
    Pipeline.withArrays_of_ne _ c (V0 m c) _ main_arg6 (by exact (by decide : ∀ w, Pipeline.arrRef spec0 w ≠ main_arg6))
  have h5 : Pipeline.withArrays (cfgs 0).spec c (V0 m c) (fun w => (dats m 0 c).arrAt w (cfgs 0).N) (Proc.devRef .tc main_arg5)
      = V m c main_arg5 :=
    Pipeline.withArrays_of_ne _ c (V0 m c) _ main_arg5 (by exact (by decide : ∀ w, Pipeline.arrRef spec0 w ≠ main_arg5))
  unfold Pipeline.afterTail₀
  show StableHlo.after hostOps1 _ (Proc.devRef .tc main_v29) = _
  after_results
  rw [h4, h5, h6]
  unfold Cert.KerTail.tailOf
  rfl

/-! ## The results as functions of the arguments -/

/-- The first result as a function of the argument arrays: the edge-first arrangement, the combination the
    difference of `(Lr, Li)`. -/
def real (x0 x1 : S100000x64.Idx → EReal) (x2 x3 : S2x1600000.Idx → EReal) (x4 : S2x64x64.Idx → EReal)
    (x5 : S1x64.Idx → EReal) (x6 x7 : S1600000.Idx → BitVec 32) : S100000x64.Idx → EReal := fun i =>
  Cert.Spec.edgeFirstSub (Cert.Args.row x6) (Cert.Args.src x7) (Cert.Args.coef x2) (Cert.Args.coef x3)
    (Cert.Args.feat x0) (Cert.Args.feat x1) (Cert.Args.wt x4) (Cert.Args.biasRow x5) (i 0) (i 1)

/-- The second result: the edge-first arrangement, the combination the sum of `(Li, Lr)`. -/
def imag (x0 x1 : S100000x64.Idx → EReal) (x2 x3 : S2x1600000.Idx → EReal) (x4 : S2x64x64.Idx → EReal)
    (x5 : S1x64.Idx → EReal) (x6 x7 : S1600000.Idx → BitVec 32) : S100000x64.Idx → EReal := fun i =>
  Cert.Spec.edgeFirstAdd (Cert.Args.row x6) (Cert.Args.src x7) (Cert.Args.coef x3) (Cert.Args.coef x2)
    (Cert.Args.feat x0) (Cert.Args.feat x1) (Cert.Args.wt x4) (Cert.Args.biasRow x5) (i 0) (i 1)

theorem real_apply (x0 x1 : S100000x64.Idx → EReal) (x2 x3 : S2x1600000.Idx → EReal) (x4 : S2x64x64.Idx → EReal)
    (x5 : S1x64.Idx → EReal) (x6 x7 : S1600000.Idx → BitVec 32) (n : Fin 100000) (o : Fin 64) :
    real x0 x1 x2 x3 x4 x5 x6 x7 (ix2 n o)
      = Cert.Spec.edgeFirstSub (Cert.Args.row x6) (Cert.Args.src x7) (Cert.Args.coef x2) (Cert.Args.coef x3)
          (Cert.Args.feat x0) (Cert.Args.feat x1) (Cert.Args.wt x4) (Cert.Args.biasRow x5) n o := rfl

theorem imag_apply (x0 x1 : S100000x64.Idx → EReal) (x2 x3 : S2x1600000.Idx → EReal) (x4 : S2x64x64.Idx → EReal)
    (x5 : S1x64.Idx → EReal) (x6 x7 : S1600000.Idx → BitVec 32) (n : Fin 100000) (o : Fin 64) :
    imag x0 x1 x2 x3 x4 x5 x6 x7 (ix2 n o)
      = Cert.Spec.edgeFirstAdd (Cert.Args.row x6) (Cert.Args.src x7) (Cert.Args.coef x3) (Cert.Args.coef x2)
          (Cert.Args.feat x0) (Cert.Args.feat x1) (Cert.Args.wt x4) (Cert.Args.biasRow x5) n o := rfl

/-- The weights the region finds, read in their role. -/
theorem weights_apply (c : Dev nD) (k : Fin 2) (ci o : Fin 64) :
    (V m c main_arg4 : S2x64x64.Idx → EReal) (ix3 k ci o) = Cert.Args.wt (m ((c : Thread nD τ).loc main_arg4)) k ci o :=
  congrFun (V_main_arg4 m c) (ix3 k ci o)

/-- THE FIRST RESULT is the edge-first difference arrangement of the argument arrays. -/
theorem real_value (c : Dev nD) :
    Cert.KerTail.tailOf (V m c main_arg6) ((dats m 0 c).arrAt 4 cfg0.N) (V m c main_arg5)
      = real (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Cert.KerBlocks.final4, V_main_arg6, V_main_arg5]
  funext i
  obtain ⟨n, o, rfl⟩ : ∃ (n : Fin 100000) (o : Fin 64), i = ix2 n o := ⟨i 0, i 1, eq_ix2 i⟩
  rw [Cert.KerTail.tailOf_apply, real_apply]
  exact edgeFirstSub_of _ _ _ _ _ _ _ _ _ n o (fun e =>
    contribSub_of (V m c main_v8) (V m c main_v15) (V m c main_v18) (V m c main_arg4)
      (Cert.Args.coef (m ((c : Thread nD τ).loc main_arg2))) (Cert.Args.coef (m ((c : Thread nD τ).loc main_arg3)))
      (Cert.Args.feat (m ((c : Thread nD τ).loc main_arg0))) (Cert.Args.feat (m ((c : Thread nD τ).loc main_arg1)))
      (Cert.Args.wt (m ((c : Thread nD τ).loc main_arg4))) (Cert.Args.src (m ((c : Thread nD τ).loc main_arg7))) e o
      (fun ch => Cert.KerPrefix.v8_apply m c e ch) (fun ch => Cert.KerPrefix.v15_apply m c e ch)
      (Cert.KerPrefix.v18_col0 m c e) (Cert.KerPrefix.v18_col1 m c e) (Cert.KerPrefix.v18_col2 m c e) (Cert.KerPrefix.v18_col3 m c e)
      (fun k ci o' => weights_apply m c k ci o'))

/-- THE SECOND RESULT is the edge-first sum arrangement of the argument arrays. -/
theorem imag_value (c : Dev nD) :
    Cert.KerTail.tailOf (V m c main_arg6) ((dats m 0 c).arrAt 5 cfg0.N) (V m c main_arg5)
      = imag (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Cert.KerBlocks.final5, V_main_arg6, V_main_arg5]
  funext i
  obtain ⟨n, o, rfl⟩ : ∃ (n : Fin 100000) (o : Fin 64), i = ix2 n o := ⟨i 0, i 1, eq_ix2 i⟩
  rw [Cert.KerTail.tailOf_apply, imag_apply]
  exact edgeFirstAdd_of _ _ _ _ _ _ _ _ _ n o (fun e =>
    contribAdd_of (V m c main_v8) (V m c main_v15) (V m c main_v18) (V m c main_arg4)
      (Cert.Args.coef (m ((c : Thread nD τ).loc main_arg3))) (Cert.Args.coef (m ((c : Thread nD τ).loc main_arg2)))
      (Cert.Args.feat (m ((c : Thread nD τ).loc main_arg0))) (Cert.Args.feat (m ((c : Thread nD τ).loc main_arg1)))
      (Cert.Args.wt (m ((c : Thread nD τ).loc main_arg4))) (Cert.Args.src (m ((c : Thread nD τ).loc main_arg7))) e o
      (fun ch => Cert.KerPrefix.v8_apply m c e ch) (fun ch => Cert.KerPrefix.v15_apply m c e ch)
      (Cert.KerPrefix.v18_col0 m c e) (Cert.KerPrefix.v18_col1 m c e) (Cert.KerPrefix.v18_col2 m c e) (Cert.KerPrefix.v18_col3 m c e)
      (fun k ci o' => weights_apply m c k ci o'))

/-! ## The run, read -/

/-- Every weakly fair execution of the idealized kernel terminates with the two results at the edge-first
    arrangements of the argument arrays, and the argument arrays unchanged. -/
theorem run : θ_run defs (onTc (τ := τ) (main (F := Ideal))) ⟨m, fun _ => 0, ρ⟩ (fun r => ∀ c : Dev nD,
      r.2.mem ((c.tc : Thread nD τ).loc main_v24)
        = real (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v29)
        = imag (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v24 (Pipeline.mem_restRefs_of main_v24 (by decide) (by decide))).trans ((tail24 m c).trans (real_value m c)),
      ((h c).2 main_v29 (Pipeline.mem_restRefs_of main_v29 (by decide) (by decide))).trans ((tail29 m c).trans (imag_value m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KerValue

end
-- ==== Proof.LibBatchScatter.lean ====
import Idealize.ShloMosaic.PureOps.Ideal
import Idealize.ShloMosaic.PureOps.Ideal.Laws
import Idealize.ShloMosaic.Lib.ValueIdx
import proofs.«119710_j9560597201099_2_alg».proof.Proof.LibIndexOps

/-!
# A stack of row scatter-adds sharing one list of positions, read at an index

The operand is a stack of `K` matrices `[A, D]`, the updates a stack of `K` matrices `[B, D]`, and there is ONE
column of `B` integer positions.  The scatter adds, in every layer `k` of the stack, row `n` of the update layer
into the operand layer's row whose number is the position word of `n` read as a signed integer; the layer axis and
the column axis are window axes (an update element keeps its layer and its column), the row axis is the one the
positions choose.  Read element by element: the result at `(k, g, f)` is the operand's element there plus the sum
of the update elements `(k, n, f)` over the update rows `n` whose position is exactly `g`.  A position that is no
row number of the operand contributes nowhere.
-/

noncomputable section

namespace Cert.LibBatchScatter

open Idealize.ShloMosaic Idealize.ShloMosaic.ValueIdx
open Cert.LibIndexOps (pos)

/-- In each of `K` layers, rows of `[B, D]` updates added into an `[A, D]` operand at the positions `[B, 1]`
    shared by the layers: the layer axis `0` and the column axis `2` are window axes, the row axis `1` is scattered. -/
abbrev batchScatterDims (K A B D : Nat)
    (wf : ScatterDims.WF ⟨3, ![K, A, D]⟩ ⟨2, ![B, 1]⟩ ⟨3, ![K, B, D]⟩ [0, 2] [1] [1] 1) :
    ScatterDims ⟨3, ![K, A, D]⟩ ⟨2, ![B, 1]⟩ ⟨3, ![K, B, D]⟩ where
  updateWindowDims := [0, 2]
  insertedWindowDims := [1]
  scatterDimsToOperandDims := [1]
  indexVectorDim := 1
  wf := wf

section
variable {K A B D w : Nat}
  (wf : ScatterDims.WF ⟨3, ![K, A, D]⟩ ⟨2, ![B, 1]⟩ ⟨3, ![K, B, D]⟩ [0, 2] [1] [1] 1)

/-- On the layer axis the window of every update starts at `0`. -/
theorem batchScatter_start0 (idx : IVec ⟨2, ![B, 1]⟩ w) (k : Fin K) (n : Fin B) (f : Fin D) (h0 : 0 < 3) :
    (batchScatterDims K A B D wf).start (ix3 k n f) idx ⟨0, h0⟩ = 0 := by
  unfold ScatterDims.start
  rw [dif_neg]
  intro h; have := List.mem_singleton.mp h; exact absurd (congrArg Fin.val this) (show (0 : Nat) ≠ 1 from Nat.zero_ne_one)

/-- On the row axis the window of update `(k, n, f)` starts at row `n`'s position. -/
theorem batchScatter_start1 (idx : IVec ⟨2, ![B, 1]⟩ w) (k : Fin K) (n : Fin B) (f : Fin D) (h1 : 1 < 3) :
    (batchScatterDims K A B D wf).start (ix3 k n f) idx ⟨1, h1⟩ = (pos idx n).toInt := by
  unfold ScatterDims.start
  rw [dif_pos (show (⟨1, h1⟩ : Fin 3) ∈ (batchScatterDims K A B D wf).scatterDimsToOperandDims from List.mem_singleton.mpr rfl)]
  have hsi : (batchScatterDims K A B D wf).siIdx (ix3 k n f)
      ⟨List.idxOf (⟨1, h1⟩ : Fin 3) (batchScatterDims K A B D wf).scatterDimsToOperandDims,
        List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- On the column axis the window of every update starts at `0`. -/
theorem batchScatter_start2 (idx : IVec ⟨2, ![B, 1]⟩ w) (k : Fin K) (n : Fin B) (f : Fin D) (h2 : 2 < 3) :
    (batchScatterDims K A B D wf).start (ix3 k n f) idx ⟨2, h2⟩ = 0 := by
  unfold ScatterDims.start
  rw [dif_neg]
  intro h; have := List.mem_singleton.mp h; exact absurd (congrArg Fin.val this) (show (2 : Nat) ≠ 1 by decide)

/-- On the layer axis the window coordinate of update `(k, n, f)` is `k`. -/
theorem batchScatter_window0 (k : Fin K) (n : Fin B) (f : Fin D) (h0 : 0 < 3) :
    (batchScatterDims K A B D wf).window (ix3 k n f) ⟨0, h0⟩ = k.val := by
  unfold ScatterDims.window
  rw [dif_pos]
  · rfl
  · simp [ScatterDims.sKept, Shape.kept, List.mem_filter]

/-- The row axis is an inserted axis: the window coordinate there is `0`. -/
theorem batchScatter_window1 (k : Fin K) (n : Fin B) (f : Fin D) (h1 : 1 < 3) :
    (batchScatterDims K A B D wf).window (ix3 k n f) ⟨1, h1⟩ = 0 := by
  unfold ScatterDims.window
  rw [dif_neg]
  intro h
  simp [ScatterDims.sKept, Shape.kept, List.mem_filter] at h

/-- On the column axis the window coordinate of update `(k, n, f)` is `f`. -/
theorem batchScatter_window2 (k : Fin K) (n : Fin B) (f : Fin D) (h2 : 2 < 3) :
    (batchScatterDims K A B D wf).window (ix3 k n f) ⟨2, h2⟩ = f.val := by
  unfold ScatterDims.window
  rw [dif_pos]
  · rfl
  · simp [ScatterDims.sKept, Shape.kept, List.mem_filter]

/-- Update `(k', n, f')` lands on `(k, g, f)` exactly when it is in layer `k`, row `n`'s position is `g`, and
    its column is `f`. -/
theorem batchScatter_resultIdx?_eq_some (idx : IVec ⟨2, ![B, 1]⟩ w) (k' : Fin K) (n : Fin B) (f' : Fin D)
    (k : Fin K) (g : Fin A) (f : Fin D) :
    (batchScatterDims K A B D wf).resultIdx? (ix3 k' n f') idx = some (ix3 k g f)
      ↔ k' = k ∧ (pos idx n).toInt = (g.val : Int) ∧ f' = f := by
  have hg := g.isLt
  have hf' := f'.isLt
  have hk' := k'.isLt
  have h0 : 0 < 3 := by omega
  have h1 : 1 < 3 := by omega
  have h2 : 2 < 3 := by omega
  unfold ScatterDims.resultIdx?
  constructor
  · intro h
    split at h
    · rename_i hc
      have h' := Option.some.inj h
      have e0 : ((batchScatterDims K A B D wf).start (ix3 k' n f') idx ⟨0, h0⟩
          + ((batchScatterDims K A B D wf).window (ix3 k' n f') ⟨0, h0⟩ : Int)).toNat = k.val :=
        congrArg (fun i : (⟨3, ![K, A, D]⟩ : Shape).Idx => (i ⟨0, h0⟩).val) h'
      have e1 : ((batchScatterDims K A B D wf).start (ix3 k' n f') idx ⟨1, h1⟩
          + ((batchScatterDims K A B D wf).window (ix3 k' n f') ⟨1, h1⟩ : Int)).toNat = g.val :=
        congrArg (fun i : (⟨3, ![K, A, D]⟩ : Shape).Idx => (i ⟨1, h1⟩).val) h'
      have e2 : ((batchScatterDims K A B D wf).start (ix3 k' n f') idx ⟨2, h2⟩
          + ((batchScatterDims K A B D wf).window (ix3 k' n f') ⟨2, h2⟩ : Int)).toNat = f.val :=
        congrArg (fun i : (⟨3, ![K, A, D]⟩ : Shape).Idx => (i ⟨2, h2⟩).val) h'
      have c1 := (hc ⟨1, h1⟩).1
      rw [batchScatter_start0, batchScatter_window0] at e0
      rw [batchScatter_start1, batchScatter_window1] at e1 c1
      rw [batchScatter_start2, batchScatter_window2] at e2
      refine ⟨Fin.ext (by omega), by omega, Fin.ext (by omega)⟩
    · exact absurd h (by simp)
  · rintro ⟨rfl, hp, rfl⟩
    have hc : ∀ a, 0 ≤ (batchScatterDims K A B D wf).start (ix3 k' n f') idx a
          + ((batchScatterDims K A B D wf).window (ix3 k' n f') a : Int)
        ∧ (batchScatterDims K A B D wf).start (ix3 k' n f') idx a
          + ((batchScatterDims K A B D wf).window (ix3 k' n f') a : Int)
          < ((⟨3, ![K, A, D]⟩ : Shape).size a : Int) := by
      intro a
      match a with
      | ⟨0, h0⟩ =>
        rw [batchScatter_start0, batchScatter_window0]
        show (0 : Int) ≤ 0 + (k'.val : Int) ∧ 0 + (k'.val : Int) < (K : Int)
        omega
      | ⟨1, h1⟩ =>
        rw [batchScatter_start1, batchScatter_window1, hp]
        show (0 : Int) ≤ (g.val : Int) + ((0 : Nat) : Int) ∧ (g.val : Int) + ((0 : Nat) : Int) < (A : Int)
        omega
      | ⟨2, h2⟩ =>
        rw [batchScatter_start2, batchScatter_window2]
        show (0 : Int) ≤ 0 + (f'.val : Int) ∧ 0 + (f'.val : Int) < (D : Int)
        omega
    rw [dif_pos hc]
    congr 1
    funext a
    refine Fin.ext ?_
    match a with
    | ⟨0, h0⟩ =>
      show ((batchScatterDims K A B D wf).start (ix3 k' n f') idx ⟨0, h0⟩
          + ((batchScatterDims K A B D wf).window (ix3 k' n f') ⟨0, h0⟩ : Int)).toNat = k'.val
      rw [batchScatter_start0, batchScatter_window0]; omega
    | ⟨1, h1⟩ =>
      show ((batchScatterDims K A B D wf).start (ix3 k' n f') idx ⟨1, h1⟩
          + ((batchScatterDims K A B D wf).window (ix3 k' n f') ⟨1, h1⟩ : Int)).toNat = g.val
      rw [batchScatter_start1, batchScatter_window1, hp]; omega
    | ⟨2, h2⟩ =>
      show ((batchScatterDims K A B D wf).start (ix3 k' n f') idx ⟨2, h2⟩
          + ((batchScatterDims K A B D wf).window (ix3 k' n f') ⟨2, h2⟩ : Int)).toNat = f'.val
      rw [batchScatter_start2, batchScatter_window2]; omega

/-- THE STACKED ROW SCATTER-ADD READ AT `(k, g, f)`: the operand's element plus the sum, over the update rows
    whose position is `g`, of the update's element in layer `k` and column `f`. -/
theorem batchScatterAdd_apply
    (x : (⟨3, ![K, A, D]⟩ : Shape).Idx → EReal) (idx : IVec ⟨2, ![B, 1]⟩ w)
    (upd : (⟨3, ![K, B, D]⟩ : Shape).Idx → EReal) (k : Fin K) (g : Fin A) (f : Fin D) :
    Ideal.hostScatterAdd (batchScatterDims K A B D wf) x idx upd (ix3 k g f)
      = x (ix3 k g f)
        + ∑ n ∈ Finset.univ.filter (fun n : Fin B => (pos idx n).toInt = (g.val : Int)), upd (ix3 k n f) := by
  unfold Ideal.hostScatterAdd
  congr 1
  have key : ∀ j : (⟨3, ![K, B, D]⟩ : Shape).Idx,
      (batchScatterDims K A B D wf).resultIdx? j idx = some (ix3 k g f) →
      (pos idx (j 1)).toInt = (g.val : Int) ∧ j = ix3 k (j 1) f := by
    intro j hj
    rw [eq_ix3 j] at hj
    have h := (batchScatter_resultIdx?_eq_some wf idx (j 0) (j 1) (j 2) k g f).mp hj
    refine ⟨h.2.1, ?_⟩
    rw [← h.1, ← h.2.2]; exact eq_ix3 j
  refine Finset.sum_nbij' (fun j => j 1) (fun n => ix3 k n f) ?_ ?_ ?_ ?_ ?_
  · intro j hj
    exact Finset.mem_filter.mpr ⟨Finset.mem_univ _, (key j (Finset.mem_filter.mp hj).2).1⟩
  · intro n hn
    exact Finset.mem_filter.mpr ⟨Finset.mem_univ _,
      (batchScatter_resultIdx?_eq_some wf idx k n f k g f).mpr ⟨rfl, (Finset.mem_filter.mp hn).2, rfl⟩⟩
  · intro j hj
    exact (key j (Finset.mem_filter.mp hj).2).2.symm
  · intro n _
    rfl
  · intro j hj
    exact congrArg upd (key j (Finset.mem_filter.mp hj).2).2

end

end Cert.LibBatchScatter

end
-- ==== Proof.RefValue.lean ====
/-
  The reference program's two results, read element by element, are the NODE FIRST arrangement of the
  two-term complex graph convolution.

  The reference works layer by layer (a layer is one of the two terms).  For each pair of a coefficient array and a
  feature array it takes, for every edge, the feature row of the edge's source node (a negative column word first raised
  by the number of nodes, then clamped to a node's number), scales it by the edge's coefficient in each layer, and adds
  the scaled rows into the rows of a zero array at the edges' targets: node `n` receives, in layer `k` and channel `c`,
  the sum over the edges landing on `n` of coefficient times source feature.  Four such sums are formed (real and
  imaginary coefficients against real and imaginary features); the real part takes the difference of two of them and
  the imaginary part the sum of the other two; each is multiplied, layer by layer, by the layer's weight matrix
  (a sum over the input channel), the two layers are added to a zero, and the bias row is added.  That is word for
  word the node-first formula; nothing here uses more than the definitions of the operations and `0 + x = x`.
-/
import proofs.«119710_j9560597201099_2_alg».proof.Proof.Gen.ReferenceIdeal.Read
import proofs.«119710_j9560597201099_2_alg».proof.Proof.Spec
import proofs.«119710_j9560597201099_2_alg».proof.Proof.Args
import proofs.«119710_j9560597201099_2_alg».proof.Proof.LibIndexOps
import proofs.«119710_j9560597201099_2_alg».proof.Proof.LibBatchScatter

noncomputable section

namespace Cert.RefValue

open Cert.ReferenceIdeal Cert.ReferenceIdeal.Gen Idealize.ShloMosaic Idealize.ShloMosaic.ValueIdx
open Cert.LibIndexOps Cert.LibBatchScatter

/-! ## The position words -/

/-- The position word the row gathers read for edge `e` is the column word of `e`, a negative word raised by the
    number of nodes. -/
theorem gatherPos_eq (x7 : (⟨S1600000, .i32⟩ : BufTy).Contents (Elt Ideal)) (e : Fin 1600000) :
    pos (B := 1600000) (w := 32) (Read.val_main_v6 (F := Ideal) x7) e = Args.wrapped x7 e := by
  show Read.val_main_v6 (F := Ideal) x7 (ix2 e ⟨0, Nat.one_pos⟩) = _
  have hj : Read.idx_main_v6 (ix2 e ⟨0, Nat.one_pos⟩) = ix1 e :=
    funext fun a => Fin.ext (by match a with | ⟨0, _⟩ => rfl)
  rw [Read.val_main_v6_apply, hj, Read.val_main_v5_apply, Read.val_main_v2_apply, Read.val_main_v4_apply,
    Read.val_main_v1_apply, Read.val_main_v3_apply, Read.val_main_c_apply, Read.val_main_c_0_apply]
  rfl

/-- The position word the scatters read for edge `e` is the row word of `e`. -/
theorem scatterPos_eq (x6 : (⟨S1600000, .i32⟩ : BufTy).Contents (Elt Ideal)) (e : Fin 1600000) :
    pos (B := 1600000) (w := 32) (Read.val_main_v13 (F := Ideal) x6) e = x6 (ix1 e) := by
  show Read.val_main_v13 (F := Ideal) x6 (ix2 e ⟨0, Nat.one_pos⟩) = _
  rw [Read.val_main_v13_apply]
  exact congrArg x6 (funext fun a => Fin.ext (by match a with | ⟨0, _⟩ => rfl))

/-! ## One gather, one scaling, one scatter -/

/-- The gathered feature row of edge `e` is the feature row of its source node. -/
theorem gathered_apply (x : (⟨S100000x64, .f32⟩ : BufTy).Contents (Elt Ideal))
    (x7 : (⟨S1600000, .i32⟩ : BufTy).Contents (Elt Ideal)) (e : Fin 1600000) (c : Fin 64) :
    Read.val_main_v7 (F := Ideal) x x7 (ix2 e c) = Args.feat x (Args.src x7 e) c := by
  unfold Read.val_main_v7
  refine (rowGather_apply (N := 100000) (E := 1600000) (D := 64) (w := 32) (by norm_num)
    Gen.gather_S100000x64_S1600000x1_S1600000x64_1_0_n_n_0_1_164_wf x (Read.val_main_v6 (F := Ideal) x7) e c).trans ?_
  rw [gatherPos_eq]
  rfl

/-- The scaled gathered features: in layer `k`, edge `e`, channel `c`, the coefficient of `e` in layer `k` times
    the source node's feature. -/
theorem scaled_apply (x : (⟨S100000x64, .f32⟩ : BufTy).Contents (Elt Ideal))
    (L : (⟨S2x1600000, .f32⟩ : BufTy).Contents (Elt Ideal))
    (x7 : (⟨S1600000, .i32⟩ : BufTy).Contents (Elt Ideal)) (k : Fin 2) (e : Fin 1600000) (c : Fin 64) :
    Read.val_main_v11 (F := Ideal) x L x7 (ix3 k e c) = Args.coef L k e * Args.feat x (Args.src x7 e) c := by
  have h9 : Read.idx_main_v0 (Read.idx_main_v9 (ix3 k e c)) = ix2 k e :=
    funext fun a => Fin.ext (by match a with | ⟨0, _⟩ => rfl | ⟨1, _⟩ => rfl)
  have h10 : Read.idx_main_v8 (Read.idx_main_v10 (ix3 k e c)) = ix2 e c :=
    funext fun a => Fin.ext (by match a with | ⟨0, _⟩ => rfl | ⟨1, _⟩ => rfl)
  rw [Read.val_main_v11_apply, Read.val_main_v9_apply, Read.val_main_v0_apply, h9, Read.val_main_v10_apply,
    Read.val_main_v8_apply, h10, gathered_apply]
  rfl

/-- The printed record of the four scatters is the stack of row scatters sharing one list of positions. -/
theorem scatterDims_eq :
    scatter_S2x100000x64_S1600000x1_S2x1600000x64_02_1_1_1
      = batchScatterDims 2 100000 1600000 64 Gen.scatter_S2x100000x64_S1600000x1_S2x1600000x64_02_1_1_1_wf := rfl

/-- The printed scatter read at layer `k`, row `n`, column `c`, for any operand, positions and updates: the
    operand's element plus the sum of the updates' elements `(k, e, c)` over the update rows `e` whose position word,
    read signed, is `n`. -/
theorem hostScatter_apply (X : (⟨3, ![2, 100000, 64]⟩ : Shape).Idx → EReal) (I : IVec ⟨2, ![1600000, 1]⟩ 32)
    (U : (⟨3, ![2, 1600000, 64]⟩ : Shape).Idx → EReal) (k : Fin 2) (n : Fin 100000) (c : Fin 64) :
    Host.scatterAdd (F := Ideal) (φ := .f32) scatter_S2x100000x64_S1600000x1_S2x1600000x64_02_1_1_1 X I U (ix3 k n c)
      = X (ix3 k n c) + ∑ e ∈ Finset.univ.filter (fun e : Fin 1600000 => (pos I e).toInt = (n.val : Int)), U (ix3 k e c) := by
  show Ideal.hostScatterAdd scatter_S2x100000x64_S1600000x1_S2x1600000x64_02_1_1_1 X I U (ix3 k n c) = _
  rw [scatterDims_eq]
  exact batchScatterAdd_apply _ X I U k n c

/-- The scatter read at layer `k`, node `n`, channel `c`: the zero array's element plus the sum of the scaled
    gathered features over the edges whose row word, read signed, is `n`. -/
theorem scatteredRaw_apply (x : (⟨S100000x64, .f32⟩ : BufTy).Contents (Elt Ideal))
    (L : (⟨S2x1600000, .f32⟩ : BufTy).Contents (Elt Ideal))
    (x6 x7 : (⟨S1600000, .i32⟩ : BufTy).Contents (Elt Ideal)) (k : Fin 2) (n : Fin 100000) (c : Fin 64) :
    Read.val_main_v15 (F := Ideal) x L x6 x7 (ix3 k n c)
      = Read.val_main_v14 (F := Ideal) (ix3 k n c)
        + ∑ e ∈ Finset.univ.filter (fun e : Fin 1600000 =>
            (pos (B := 1600000) (w := 32) (Read.val_main_v13 (F := Ideal) x6) e).toInt = (n.val : Int)),
          Read.val_main_v11 (F := Ideal) x L x7 (ix3 k e c) := by
  exact hostScatter_apply (Read.val_main_v14 (F := Ideal)) (Read.val_main_v13 (F := Ideal) x6)
    (Read.val_main_v11 (F := Ideal) x L x7) k n c

/-- The scattered scaled features: node `n` receives, in layer `k` and channel `c`, the sum over the edges landing
    on it of coefficient times source feature. -/
theorem scattered_apply (x : (⟨S100000x64, .f32⟩ : BufTy).Contents (Elt Ideal))
    (L : (⟨S2x1600000, .f32⟩ : BufTy).Contents (Elt Ideal))
    (x6 x7 : (⟨S1600000, .i32⟩ : BufTy).Contents (Elt Ideal)) (k : Fin 2) (n : Fin 100000) (c : Fin 64) :
    Read.val_main_v15 (F := Ideal) x L x6 x7 (ix3 k n c)
      = ∑ e ∈ Spec.landing (Args.row x6) n, Args.coef L k e * Args.feat x (Args.src x7 e) c := by
  have hz : Read.val_main_v14 (F := Ideal) (ix3 k n c) = 0 := by
    rw [Read.val_main_v14_apply, Read.val_main_v12_apply, Read.val_main_cst_apply]
    exact Ideal.ofBits_zero_f32
  rw [scatteredRaw_apply, hz, zero_add]
  refine Finset.sum_congr (Finset.filter_congr fun e _ => ?_) (fun e _ => scaled_apply x L x7 k e c)
  rw [scatterPos_eq]
  exact Iff.rfl

/-- The three other scatters of the program are the same operation on other arrays. -/
theorem v31_eq (x1 : (⟨S100000x64, .f32⟩ : BufTy).Contents (Elt Ideal))
    (x3 : (⟨S2x1600000, .f32⟩ : BufTy).Contents (Elt Ideal)) (x6 x7 : (⟨S1600000, .i32⟩ : BufTy).Contents (Elt Ideal)) :
    Read.val_main_v31 (F := Ideal) x1 x3 x6 x7 = Read.val_main_v15 (F := Ideal) x1 x3 x6 x7 := rfl
theorem v49_eq (x0 : (⟨S100000x64, .f32⟩ : BufTy).Contents (Elt Ideal))
    (x3 : (⟨S2x1600000, .f32⟩ : BufTy).Contents (Elt Ideal)) (x6 x7 : (⟨S1600000, .i32⟩ : BufTy).Contents (Elt Ideal)) :
    Read.val_main_v49 (F := Ideal) x0 x3 x6 x7 = Read.val_main_v15 (F := Ideal) x0 x3 x6 x7 := rfl
theorem v65_eq (x1 : (⟨S100000x64, .f32⟩ : BufTy).Contents (Elt Ideal))
    (x2 : (⟨S2x1600000, .f32⟩ : BufTy).Contents (Elt Ideal)) (x6 x7 : (⟨S1600000, .i32⟩ : BufTy).Contents (Elt Ideal)) :
    Read.val_main_v65 (F := Ideal) x1 x2 x6 x7 = Read.val_main_v15 (F := Ideal) x1 x2 x6 x7 := rfl

/-! ## One layer of each part -/

section
variable (x0 x1 : (⟨S100000x64, .f32⟩ : BufTy).Contents (Elt Ideal))
  (x2 x3 : (⟨S2x1600000, .f32⟩ : BufTy).Contents (Elt Ideal))
  (x4 : (⟨S2x64x64, .f32⟩ : BufTy).Contents (Elt Ideal))
  (x5 : (⟨S1x64, .f32⟩ : BufTy).Contents (Elt Ideal))
  (x6 x7 : (⟨S1600000, .i32⟩ : BufTy).Contents (Elt Ideal))

/-- Layer `k` of the real part at node `n`, output channel `o`: the difference of the two landing sums, times the
    layer's weight matrix. -/
theorem realLayer_apply (k : Fin 2) (n : Fin 100000) (o : Fin 64) :
    Read.val_main_v33 (F := Ideal) x0 x1 x2 x3 x4 x6 x7 (ix3 k n o)
      = ∑ c : Fin 64,
          ((∑ e ∈ Spec.landing (Args.row x6) n, Args.coef x2 k e * Args.feat x0 (Args.src x7 e) c)
            - ∑ e ∈ Spec.landing (Args.row x6) n, Args.coef x3 k e * Args.feat x1 (Args.src x7 e) c)
          * Args.wt x4 k c o := by
  rw [Read.val_main_v33_apply]
  refine Finset.sum_congr rfl fun c _ => ?_
  have hl : Read.lidx_main_v33 (ix3 k n o) c = ix3 k n c :=
    funext fun a => Fin.ext (by match a with | ⟨0, _⟩ => rfl | ⟨1, _⟩ => rfl | ⟨2, _⟩ => rfl)
  have hr : Read.ridx_main_v33 (ix3 k n o) c = ix3 k c o :=
    funext fun a => Fin.ext (by match a with | ⟨0, _⟩ => rfl | ⟨1, _⟩ => rfl | ⟨2, _⟩ => rfl)
  rw [hl, hr, Read.val_main_v32_apply, v31_eq, scattered_apply, scattered_apply]
  rfl

/-- Layer `k` of the imaginary part at node `n`, output channel `o`: the sum of the two landing sums, times the
    layer's weight matrix. -/
theorem imagLayer_apply (k : Fin 2) (n : Fin 100000) (o : Fin 64) :
    Read.val_main_v67 (F := Ideal) x0 x1 x2 x3 x4 x6 x7 (ix3 k n o)
      = ∑ c : Fin 64,
          ((∑ e ∈ Spec.landing (Args.row x6) n, Args.coef x3 k e * Args.feat x0 (Args.src x7 e) c)
            + ∑ e ∈ Spec.landing (Args.row x6) n, Args.coef x2 k e * Args.feat x1 (Args.src x7 e) c)
          * Args.wt x4 k c o := by
  rw [Read.val_main_v67_apply]
  refine Finset.sum_congr rfl fun c _ => ?_
  have hl : Read.lidx_main_v67 (ix3 k n o) c = ix3 k n c :=
    funext fun a => Fin.ext (by match a with | ⟨0, _⟩ => rfl | ⟨1, _⟩ => rfl | ⟨2, _⟩ => rfl)
  have hr : Read.ridx_main_v67 (ix3 k n o) c = ix3 k c o :=
    funext fun a => Fin.ext (by match a with | ⟨0, _⟩ => rfl | ⟨1, _⟩ => rfl | ⟨2, _⟩ => rfl)
  rw [hl, hr, Read.val_main_v66_apply, v49_eq, v65_eq, scattered_apply, scattered_apply]
  rfl

/-! ## The two results -/

/-- THE REAL PART of the reference is the node-first arrangement with a difference. -/
theorem real_eq :
    Read.val_main_v70 (F := Ideal) x0 x1 x2 x3 x4 x5 x6 x7
      = fun i => Cert.Spec.nodeFirstSub (Cert.Args.row x6) (Cert.Args.src x7) (Cert.Args.coef x2) (Cert.Args.coef x3)
          (Cert.Args.feat x0) (Cert.Args.feat x1) (Cert.Args.wt x4) (Cert.Args.biasRow x5) (i 0) (i 1) := by
  funext i
  obtain ⟨n, o, rfl⟩ : ∃ (n : Fin 100000) (o : Fin 64), i = ix2 n o := ⟨i 0, i 1, eq_ix2 i⟩
  have hi : ∀ k : Fin 2, Read.idx_main_v68 (ix2 n o) k = ix3 k n o := fun k =>
    funext fun a => Fin.ext (by match a with | ⟨0, _⟩ => rfl | ⟨1, _⟩ => rfl | ⟨2, _⟩ => rfl)
  have hb : Read.idx_main_v69 (ix2 n o) = ix2 ⟨0, Nat.one_pos⟩ o :=
    funext fun a => Fin.ext (by match a with | ⟨0, _⟩ => rfl | ⟨1, _⟩ => rfl)
  rw [Read.val_main_v70_apply, Read.val_main_v68_apply, Read.val_main_v69_apply, Read.val_main_cst_10_apply, hb,
    Finset.sum_congr rfl fun k _ => (congrArg _ (hi k)).trans (realLayer_apply x0 x1 x2 x3 x4 x6 x7 k n o)]
  show (Ideal.ofBits .f32 0x00000000#32 + _) + _ = _
  rw [Ideal.ofBits_zero_f32, zero_add]
  rfl

/-- THE IMAGINARY PART of the reference is the node-first arrangement with a sum. -/
theorem imag_eq :
    Read.val_main_v73 (F := Ideal) x0 x1 x2 x3 x4 x5 x6 x7
      = fun i => Cert.Spec.nodeFirstAdd (Cert.Args.row x6) (Cert.Args.src x7) (Cert.Args.coef x3) (Cert.Args.coef x2)
          (Cert.Args.feat x0) (Cert.Args.feat x1) (Cert.Args.wt x4) (Cert.Args.biasRow x5) (i 0) (i 1) := by
  funext i
  obtain ⟨n, o, rfl⟩ : ∃ (n : Fin 100000) (o : Fin 64), i = ix2 n o := ⟨i 0, i 1, eq_ix2 i⟩
  have hi : ∀ k : Fin 2, Read.idx_main_v71 (ix2 n o) k = ix3 k n o := fun k =>
    funext fun a => Fin.ext (by match a with | ⟨0, _⟩ => rfl | ⟨1, _⟩ => rfl | ⟨2, _⟩ => rfl)
  have hb : Read.idx_main_v72 (ix2 n o) = ix2 ⟨0, Nat.one_pos⟩ o :=
    funext fun a => Fin.ext (by match a with | ⟨0, _⟩ => rfl | ⟨1, _⟩ => rfl)
  rw [Read.val_main_v73_apply, Read.val_main_v71_apply, Read.val_main_v72_apply, Read.val_main_cst_11_apply, hb,
    Finset.sum_congr rfl fun k _ => (congrArg _ (hi k)).trans (imagLayer_apply x0 x1 x2 x3 x4 x6 x7 k n o)]
  show (Ideal.ofBits .f32 0x00000000#32 + _) + _ = _
  rw [Ideal.ofBits_zero_f32, zero_add]
  rfl

end

end Cert.RefValue

end
-- ==== Proof.LibRealValued.lean ====
/-
  Extended reals that are real numbers, and the exact float operations that keep them so.

  At the exact instance a float is an extended real.  The algebraic laws that join two arrangements of one
  computation (distributing a product over a sum, cancelling) hold for real numbers and fail at the
  infinities, so a proof that uses one must first know that the values it is applied to are real.  This file
  names that property and shows it is kept by the sum, the difference, the product, the larger of two values,
  a finite sum, the quotient by a nonzero real, and the reciprocal square root of a positive real.
-/
import Idealize.ShloMosaic.PureOps.Ideal

open Idealize.ShloMosaic

namespace Cert.Lib

/-- The extended real `x` is a real number (neither infinity). -/
def IsReal (x : EReal) : Prop := ∃ r : ℝ, x = (r : EReal)

namespace IsReal

theorem coe (r : ℝ) : IsReal (r : EReal) := ⟨r, rfl⟩

theorem zero : IsReal (0 : EReal) := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

/-- The larger of two reals is one of them. -/
theorem max {x y : EReal} (hx : IsReal x) (hy : IsReal y) : IsReal (max x y) := by
  rcases le_total x y with h | h
  · rw [max_eq_right h]; exact hy
  · rw [max_eq_left h]; exact hx

theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- The exact quotient by a nonzero real is the product with its reciprocal, hence real. -/
theorem div_coe {x : EReal} (hx : IsReal x) {y : ℝ} (hy : y ≠ 0) : IsReal (Ideal.div x (y : EReal)) := by
  rw [Ideal.div_coe hy]; exact hx.mul (coe _)

/-- The reciprocal square root of a positive real is real. -/
theorem rsqrt_of_pos {r : ℝ} (hr : 0 < r) : IsReal (Ideal.rsqrt (r : EReal)) := by
  rw [Ideal.rsqrt_coe, if_neg (not_lt.mpr hr.le), if_neg hr.ne']; exact ⟨_, rfl⟩

end IsReal

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the coercion of a real family. -/
theorem exists_real_family {ι : Type*} {x : ι → EReal} (h : ∀ i, IsReal (x i)) : ∃ r : ι → ℝ, x = fun i => (r i : EReal) := by
  choose r hr using h
  exact ⟨r, funext hr⟩

end Cert.Lib
-- ==== Proof.Algebra.lean ====
/-
  The two arrangements of the two-term complex graph convolution agree on real entries.

  In the node-first arrangement the sums over the landing edges are taken first, their difference (or sum) is
  multiplied by the weight and summed over the input channel, and the two terms are added.  In the edge-first
  arrangement every landing edge first combines the two feature rows of its source, multiplies by the weight and
  sums over the input channel for both terms, and the edges are summed last.

  Passing from one to the other uses three laws: a difference (or sum) of two finite sums over the same edges is
  the sum of the differences, a finite sum times a factor is the sum of the products, and two finite sums can be
  exchanged.  The second is distributivity, which on the extended reals fails at the infinities, so the equality is
  stated for entries that are real numbers: the coefficient, feature and weight families are then coercions of real
  families, both sides are coercions of real expressions, and the identity is proved in the real numbers.  The bias
  is added last on both sides and needs no hypothesis.
-/
import proofs.«119710_j9560597201099_2_alg».proof.Proof.Spec
import proofs.«119710_j9560597201099_2_alg».proof.Proof.LibRealValued

namespace Cert.Algebra

open Cert.Lib

variable {N E C : ℕ}

/-- A family of reals over two indices is the coercion of a real family. -/
theorem exists_real_family₂ {ι κ : Type*} {x : ι → κ → EReal} (h : ∀ i j, IsReal (x i j)) :
    ∃ r : ι → κ → ℝ, x = fun i j => (r i j : EReal) := by
  choose r hr using h
  exact ⟨r, funext fun i => funext fun j => hr i j⟩

/-- A family of reals over three indices is the coercion of a real family. -/
theorem exists_real_family₃ {ι κ μ : Type*} {x : ι → κ → μ → EReal} (h : ∀ i j l, IsReal (x i j l)) :
    ∃ r : ι → κ → μ → ℝ, x = fun i j l => (r i j l : EReal) := by
  choose r hr using h
  exact ⟨r, funext fun i => funext fun j => funext fun l => hr i j l⟩

/-- One term in the real numbers, the combination a difference: the channel sum of (edge sum minus edge sum) times
the weight is the edge sum of the channel sums of the combined products. -/
theorem real_term_sub (L : Finset (Fin E)) (src : Fin E → Fin N) (a b : Fin E → ℝ) (xr xi : Fin N → Fin C → ℝ)
    (w : Fin C → ℝ) :
    (∑ c : Fin C, ((∑ e ∈ L, a e * xr (src e) c) - ∑ e ∈ L, b e * xi (src e) c) * w c)
      = ∑ e ∈ L, ∑ c : Fin C, (a e * xr (src e) c - b e * xi (src e) c) * w c := by
  rw [Finset.sum_comm (s := L)]
  refine Finset.sum_congr rfl fun c _ => ?_
  rw [← Finset.sum_sub_distrib, Finset.sum_mul]

/-- One term in the real numbers, the combination a sum. -/
theorem real_term_add (L : Finset (Fin E)) (src : Fin E → Fin N) (a b : Fin E → ℝ) (xr xi : Fin N → Fin C → ℝ)
    (w : Fin C → ℝ) :
    (∑ c : Fin C, ((∑ e ∈ L, a e * xr (src e) c) + ∑ e ∈ L, b e * xi (src e) c) * w c)
      = ∑ e ∈ L, ∑ c : Fin C, (a e * xr (src e) c + b e * xi (src e) c) * w c := by
  rw [Finset.sum_comm (s := L)]
  refine Finset.sum_congr rfl fun c _ => ?_
  rw [← Finset.sum_add_distrib, Finset.sum_mul]

/-- Both terms in the real numbers, the combination a difference. -/
theorem real_sub (L : Finset (Fin E)) (src : Fin E → Fin N) (a b : Fin 2 → Fin E → ℝ) (xr xi : Fin N → Fin C → ℝ)
    (w : Fin 2 → Fin C → Fin C → ℝ) (o : Fin C) :
    (∑ k : Fin 2, ∑ c : Fin C,
        ((∑ e ∈ L, a k e * xr (src e) c) - ∑ e ∈ L, b k e * xi (src e) c) * w k c o)
      = ∑ e ∈ L,
          ((∑ c : Fin C, (a 0 e * xr (src e) c - b 0 e * xi (src e) c) * w 0 c o)
            + ∑ c : Fin C, (a 1 e * xr (src e) c - b 1 e * xi (src e) c) * w 1 c o) := by
  rw [Fin.sum_univ_two, real_term_sub L src (a 0) (b 0) xr xi (fun c => w 0 c o),
    real_term_sub L src (a 1) (b 1) xr xi (fun c => w 1 c o), ← Finset.sum_add_distrib]

/-- Both terms in the real numbers, the combination a sum. -/
theorem real_add (L : Finset (Fin E)) (src : Fin E → Fin N) (a b : Fin 2 → Fin E → ℝ) (xr xi : Fin N → Fin C → ℝ)
    (w : Fin 2 → Fin C → Fin C → ℝ) (o : Fin C) :
    (∑ k : Fin 2, ∑ c : Fin C,
        ((∑ e ∈ L, a k e * xr (src e) c) + ∑ e ∈ L, b k e * xi (src e) c) * w k c o)
      = ∑ e ∈ L,
          ((∑ c : Fin C, (a 0 e * xr (src e) c + b 0 e * xi (src e) c) * w 0 c o)
            + ∑ c : Fin C, (a 1 e * xr (src e) c + b 1 e * xi (src e) c) * w 1 c o) := by
  rw [Fin.sum_univ_two, real_term_add L src (a 0) (b 0) xr xi (fun c => w 0 c o),
    real_term_add L src (a 1) (b 1) xr xi (fun c => w 1 c o), ← Finset.sum_add_distrib]

/-- On real entries the node-first and the edge-first arrangement agree, the combination a difference. -/
theorem nodeFirstSub_eq_edgeFirstSub (row : Fin E → ℤ) (src : Fin E → Fin N) (a b : Fin 2 → Fin E → EReal)
    (xr xi : Fin N → Fin C → EReal) (w : Fin 2 → Fin C → Fin C → EReal) (bias : Fin C → EReal)
    (ha : ∀ k e, IsReal (a k e)) (hb : ∀ k e, IsReal (b k e)) (hxr : ∀ n c, IsReal (xr n c))
    (hxi : ∀ n c, IsReal (xi n c)) (hw : ∀ k c o, IsReal (w k c o)) (n : Fin N) (o : Fin C) :
    Cert.Spec.nodeFirstSub row src a b xr xi w bias n o = Cert.Spec.edgeFirstSub row src a b xr xi w bias n o := by
  obtain ⟨ra, rfl⟩ := exists_real_family₂ ha
  obtain ⟨rb, rfl⟩ := exists_real_family₂ hb
  obtain ⟨rxr, rfl⟩ := exists_real_family₂ hxr
  obtain ⟨rxi, rfl⟩ := exists_real_family₂ hxi
  obtain ⟨rwt, rfl⟩ := exists_real_family₃ hw
  unfold Cert.Spec.nodeFirstSub Cert.Spec.edgeFirstSub
  congr 1
  simp only [← EReal.coe_mul, ← EReal.coe_sub, ← EReal.coe_add, ← coe_finset_sum]
  exact congrArg _ (real_sub (Cert.Spec.landing row n) src ra rb rxr rxi rwt o)

/-- On real entries the node-first and the edge-first arrangement agree, the combination a sum. -/
theorem nodeFirstAdd_eq_edgeFirstAdd (row : Fin E → ℤ) (src : Fin E → Fin N) (a b : Fin 2 → Fin E → EReal)
    (xr xi : Fin N → Fin C → EReal) (w : Fin 2 → Fin C → Fin C → EReal) (bias : Fin C → EReal)
    (ha : ∀ k e, IsReal (a k e)) (hb : ∀ k e, IsReal (b k e)) (hxr : ∀ n c, IsReal (xr n c))
    (hxi : ∀ n c, IsReal (xi n c)) (hw : ∀ k c o, IsReal (w k c o)) (n : Fin N) (o : Fin C) :
    Cert.Spec.nodeFirstAdd row src a b xr xi w bias n o = Cert.Spec.edgeFirstAdd row src a b xr xi w bias n o := by
  obtain ⟨ra, rfl⟩ := exists_real_family₂ ha
  obtain ⟨rb, rfl⟩ := exists_real_family₂ hb
  obtain ⟨rxr, rfl⟩ := exists_real_family₂ hxr
  obtain ⟨rxi, rfl⟩ := exists_real_family₂ hxi
  obtain ⟨rwt, rfl⟩ := exists_real_family₃ hw
  unfold Cert.Spec.nodeFirstAdd Cert.Spec.edgeFirstAdd
  congr 1
  simp only [← EReal.coe_mul, ← EReal.coe_add, ← coe_finset_sum]
  exact congrArg _ (real_add (Cert.Spec.landing row n) src ra rb rxr rxi rwt o)

end Cert.Algebra
-- ==== Proof.Finite.lean ====
/-
  From the precondition, every entry of the six float argument arrays is a real number.

  The precondition says that a conjunction of six tests is true; the test of one array says that every entry `x`
  satisfies `|x| < +∞`, the absolute value being the larger of `x` and `-x` and `+∞` the value of the word
  `0x7F800000`.  An extended real with `|x| < +∞` is neither infinity: the absolute value of either infinity is
  `+∞`, which is not below itself.  So it is a real number.  The test of a whole array is the conjunction of the
  tests of its entries (a reduction by "and" from the word one over every axis), and a conjunction of words that is
  one has every member one; this gives the entry test at every index of every array.
-/
import proofs.«119710_j9560597201099_2_alg».proof.Defs
import proofs.«119710_j9560597201099_2_alg».proof.Proof.Gen.Pre_finite_inputs
import proofs.«119710_j9560597201099_2_alg».proof.Proof.LibRealValued
import Idealize.ShloMosaic.Lib.ReduceAll
import Idealize.ShloMosaic.Lib.ValueIdx

namespace Cert.Finite

open Idealize.ShloMosaic Idealize.SL.Sem Cert.Lib

/-- The shape with no axis has one index. -/
instance : Subsingleton Cert.Pre_finite_inputs.S_.Idx := ⟨fun a b => funext fun d => d.elim0⟩

/-- The word `0x7F800000` is `+∞`. -/
theorem inf_word : Ideal.ofBits .f32 0x7F800000#32 = (⊤ : EReal) := by simp [Ideal.ofBits, Ideal.ieee]

/-- An extended real whose absolute value is below `+∞` is a real number. -/
theorem isReal_of_abs_lt_inf (x : EReal) (h : Ideal.cmp .olt (max x (-x)) (Ideal.ofBits .f32 0x7F800000#32) = 1#1) :
    IsReal x := by
  rw [inf_word] at h
  unfold Ideal.cmp at h
  induction x using EReal.rec with
  | bot => simp at h
  | coe r => exact ⟨r, rfl⟩
  | top => simp at h

/-- If the test "every entry has absolute value below `+∞`" of an array is true, every entry is real. -/
theorem all_real {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim S ![] hb (constant (F := Ideal) Cert.Pre_finite_inputs.S_ .f32 0x7F800000#32)))
          init hr hu j = 1#1) (i : S.Idx) : IsReal (x i) :=
  isReal_of_abs_lt_inf (x i) (Host.reduce_andi_all _ init hr hu j e i)

/-- Under the precondition of the idealized kernel, on every device each of the six float argument arrays has
only real entries. -/
theorem real_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S100000x64.Idx, IsReal ((m ((c.tc : Thread Cert.KernelIdeal.nD Cert.KernelIdeal.τ).loc Cert.KernelIdeal.main_arg0) : FVec Ideal Cert.Pre_finite_inputs.S100000x64 .f32) i))
      ∧ (∀ i : Cert.Pre_finite_inputs.S100000x64.Idx, IsReal ((m ((c.tc : Thread Cert.KernelIdeal.nD Cert.KernelIdeal.τ).loc Cert.KernelIdeal.main_arg1) : FVec Ideal Cert.Pre_finite_inputs.S100000x64 .f32) i))
      ∧ (∀ i : Cert.Pre_finite_inputs.S2x1600000.Idx, IsReal ((m ((c.tc : Thread Cert.KernelIdeal.nD Cert.KernelIdeal.τ).loc Cert.KernelIdeal.main_arg2) : FVec Ideal Cert.Pre_finite_inputs.S2x1600000 .f32) i))
      ∧ (∀ i : Cert.Pre_finite_inputs.S2x1600000.Idx, IsReal ((m ((c.tc : Thread Cert.KernelIdeal.nD Cert.KernelIdeal.τ).loc Cert.KernelIdeal.main_arg3) : FVec Ideal Cert.Pre_finite_inputs.S2x1600000 .f32) i))
      ∧ (∀ i : Cert.Pre_finite_inputs.S2x64x64.Idx, IsReal ((m ((c.tc : Thread Cert.KernelIdeal.nD Cert.KernelIdeal.τ).loc Cert.KernelIdeal.main_arg4) : FVec Ideal Cert.Pre_finite_inputs.S2x64x64 .f32) i))
      ∧ (∀ i : Cert.Pre_finite_inputs.S1x64.Idx, IsReal ((m ((c.tc : Thread Cert.KernelIdeal.nD Cert.KernelIdeal.τ).loc Cert.KernelIdeal.main_arg5) : FVec Ideal Cert.Pre_finite_inputs.S1x64 .f32) i)) := by
  have h0 := congrFun (h c) ValueIdx.ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_real _ _ _ _ _ _ h0', all_real _ _ _ _ _ _ h1, all_real _ _ _ _ _ _ h2, all_real _ _ _ _ _ _ h3,
    all_real _ _ _ _ _ _ h4, all_real _ _ _ _ _ _ h5⟩

end Cert.Finite
-- ==== Proof.Claims.lean ====
/-
  The five claims of the certificate, assembled.

  The kernel and its idealization run, terminate and leave their arguments unchanged by their generated frames; the
  reference's frame is its generated run with the results dropped.  The idealization rewrote no operation, so there is
  nothing to preserve.  For the value claim: the idealized kernel ends with its two results at the EDGE-FIRST
  arrangement of the argument arrays (each edge's combined source row times the weights, added up by target node),
  the idealized reference with its two at the NODE-FIRST arrangement (the scaled source rows added up by target node
  first, then combined and multiplied by the weights).  Every float argument is finite, so every entry is a real
  number, and over the reals the two arrangements agree: the product distributes over the sums and the finite sums
  exchange.
-/
import proofs.«119710_j9560597201099_2_alg».proof.Defs
import proofs.«119710_j9560597201099_2_alg».proof.Proof.Gen.Kernel.Frame
import proofs.«119710_j9560597201099_2_alg».proof.Proof.Gen.KernelIdeal.Frame
import proofs.«119710_j9560597201099_2_alg».proof.Proof.Gen.ReferenceIdeal.Run
import proofs.«119710_j9560597201099_2_alg».proof.Proof.Gen.ReferenceIdeal.Read
import proofs.«119710_j9560597201099_2_alg».proof.Proof.Gen.Pre_finite_inputs
import proofs.«119710_j9560597201099_2_alg».proof.Proof.KerValue
import proofs.«119710_j9560597201099_2_alg».proof.Proof.RefValue
import proofs.«119710_j9560597201099_2_alg».proof.Proof.Algebra
import proofs.«119710_j9560597201099_2_alg».proof.Proof.Finite

noncomputable section

open Idealize.ShloMosaic Idealize.ShloMosaic.TcCoe Idealize.SL.Sem Idealize.ShloMosaic.ValueIdx

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The two arrangements of the first result agree on real entries. -/
theorem real_bridge (x0 x1 : Cert.KernelIdeal.S100000x64.Idx → EReal) (x2 x3 : Cert.KernelIdeal.S2x1600000.Idx → EReal)
    (x4 : Cert.KernelIdeal.S2x64x64.Idx → EReal) (x5 : Cert.KernelIdeal.S1x64.Idx → EReal)
    (x6 x7 : Cert.KernelIdeal.S1600000.Idx → BitVec 32)
    (r0 : ∀ i, Cert.Lib.IsReal (x0 i)) (r1 : ∀ i, Cert.Lib.IsReal (x1 i)) (r2 : ∀ i, Cert.Lib.IsReal (x2 i))
    (r3 : ∀ i, Cert.Lib.IsReal (x3 i)) (r4 : ∀ i, Cert.Lib.IsReal (x4 i)) :
    (fun i : Cert.KernelIdeal.S100000x64.Idx =>
        Cert.Spec.nodeFirstSub (Cert.Args.row x6) (Cert.Args.src x7) (Cert.Args.coef x2) (Cert.Args.coef x3)
          (Cert.Args.feat x0) (Cert.Args.feat x1) (Cert.Args.wt x4) (Cert.Args.biasRow x5) (i 0) (i 1))
      = Cert.KerValue.real x0 x1 x2 x3 x4 x5 x6 x7 := by
  funext i
  exact Cert.Algebra.nodeFirstSub_eq_edgeFirstSub _ _ _ _ _ _ _ _
    (fun k e => r2 (ix2 k e)) (fun k e => r3 (ix2 k e)) (fun n c => r0 (ix2 n c)) (fun n c => r1 (ix2 n c))
    (fun k c o => r4 (ix3 k c o)) (i 0) (i 1)

/-- The two arrangements of the second result agree on real entries. -/
theorem imag_bridge (x0 x1 : Cert.KernelIdeal.S100000x64.Idx → EReal) (x2 x3 : Cert.KernelIdeal.S2x1600000.Idx → EReal)
    (x4 : Cert.KernelIdeal.S2x64x64.Idx → EReal) (x5 : Cert.KernelIdeal.S1x64.Idx → EReal)
    (x6 x7 : Cert.KernelIdeal.S1600000.Idx → BitVec 32)
    (r0 : ∀ i, Cert.Lib.IsReal (x0 i)) (r1 : ∀ i, Cert.Lib.IsReal (x1 i)) (r2 : ∀ i, Cert.Lib.IsReal (x2 i))
    (r3 : ∀ i, Cert.Lib.IsReal (x3 i)) (r4 : ∀ i, Cert.Lib.IsReal (x4 i)) :
    (fun i : Cert.KernelIdeal.S100000x64.Idx =>
        Cert.Spec.nodeFirstAdd (Cert.Args.row x6) (Cert.Args.src x7) (Cert.Args.coef x3) (Cert.Args.coef x2)
          (Cert.Args.feat x0) (Cert.Args.feat x1) (Cert.Args.wt x4) (Cert.Args.biasRow x5) (i 0) (i 1))
      = Cert.KerValue.imag x0 x1 x2 x3 x4 x5 x6 x7 := by
  funext i
  exact Cert.Algebra.nodeFirstAdd_eq_edgeFirstAdd _ _ _ _ _ _ _ _
    (fun k e => r3 (ix2 k e)) (fun k e => r2 (ix2 k e)) (fun n c => r0 (ix2 n c)) (fun n c => r1 (ix2 n c))
    (fun k c o => r4 (ix3 k c o)) (i 0) (i 1)

/-- THE VALUE CLAIM: from memories agreeing on the arguments, both idealized programs end with the same two results. -/
theorem algebraic : Cert.algebraic_KernelIdeal_ReferenceIdeal := by
  intro m ρ m' ρ' hpre hagree
  refine ⟨_, _, Cert.KerValue.run m ρ, ?_⟩
  refine (θ_run Cert.ReferenceIdeal.defs _ _).mono (fun r h c => ?_) (Cert.ReferenceIdeal.Value.run (F := Ideal) m' ρ')
  obtain ⟨h0, h1, h2, h3, h4, h5, h6, h7⟩ := hagree c
  obtain ⟨r0, r1, r2, r3, r4, r5⟩ := Cert.Finite.real_args m hpre c
  refine ⟨(h c).1.trans ?_, (h c).2.1.trans ?_, (h c).2.2⟩
  · rw [Cert.ReferenceIdeal.Read.val_main_v70_eq, Cert.RefValue.real_eq, h0, h1, h2, h3, h4, h5, h6, h7]
    exact real_bridge _ _ _ _ _ _ _ _ r0 r1 r2 r3 r4
  · rw [Cert.ReferenceIdeal.Read.val_main_v73_eq, Cert.RefValue.imag_eq, h0, h1, h2, h3, h4, h5, h6, h7]
    exact imag_bridge _ _ _ _ _ _ _ _ r0 r1 r2 r3 r4

end Cert.Proof.Claims

end
-- ==== Proof.lean ====
/-
  A two-term complex graph convolution on a graph of 100000 nodes and 1600000 edges: a blocked kernel against its
  plain reference, equal over the extended reals when every float input is finite.

  Each edge `e` has a target row, a source node, and coefficients `Lr k e`, `Li k e` for `k = 0, 1`; nodes carry
  feature rows `Xr`, `Xi` (64 channels), `W k` is a 64 × 64 weight matrix and `bias` a row.  The result at node `n`
  has the real part `Σ_k (S(Lr k, Xr) − S(Li k, Xi)) · W k + bias` and the imaginary part
  `Σ_k (S(Li k, Xr) + S(Lr k, Xi)) · W k + bias`, where `S(L, X) n = Σ_{e lands on n} L e · X (source e)`.

  The reference computes exactly that (node first).  The kernel gathers the source rows per edge, forms per edge
  `Σ_k (Lr k e · Xr (source e) − Li k e · Xi (source e)) · W k` in blocks of 3200 edges, and only then adds the
  per-edge rows up by target node and adds the bias (edge first).  Changes of float format are the identity on the
  extended reals, a product into a zero accumulator is a plain sum, and both programs read the same clamped source
  node and the same landing condition off the same integer arrays; what joins the two arrangements is that, for
  real entries, the product distributes over the sums and finite sums exchange.  The modules:
  Spec (the two arrangements), Args (the role of each argument array), Algebra (they agree on real entries),
  Finite (finite inputs are real), KerBody / KerBlocks / KerPrefix / KerTail / KerValue (the kernel is the edge-first
  arrangement), RefValue (the reference is the node-first one), Claims (the five claims).
-/
import proofs.«119710_j9560597201099_2_alg».proof.Defs
import proofs.«119710_j9560597201099_2_alg».proof.Proof.Gen.Kernel
import proofs.«119710_j9560597201099_2_alg».proof.Proof.Gen.Kernel.Skeleton
import proofs.«119710_j9560597201099_2_alg».proof.Proof.Gen.Kernel.Launch
import proofs.«119710_j9560597201099_2_alg».proof.Proof.Gen.Kernel.Points
import proofs.«119710_j9560597201099_2_alg».proof.Proof.Gen.Kernel.Frame
import proofs.«119710_j9560597201099_2_alg».proof.Proof.Gen.KernelIdeal
import proofs.«119710_j9560597201099_2_alg».proof.Proof.Gen.KernelIdeal.Skeleton
import proofs.«119710_j9560597201099_2_alg».proof.Proof.Gen.KernelIdeal.Launch
import proofs.«119710_j9560597201099_2_alg».proof.Proof.Gen.KernelIdeal.Points
import proofs.«119710_j9560597201099_2_alg».proof.Proof.Gen.KernelIdeal.Frame
import proofs.«119710_j9560597201099_2_alg».proof.Proof.Gen.ReferenceIdeal
import proofs.«119710_j9560597201099_2_alg».proof.Proof.Gen.ReferenceIdeal.Run
import proofs.«119710_j9560597201099_2_alg».proof.Proof.Gen.ReferenceIdeal.Read
import proofs.«119710_j9560597201099_2_alg».proof.Proof.Gen.Pre_finite_inputs
import proofs.«119710_j9560597201099_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
